-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S10000x10000 : Shape := ⟨2, ![10000, 10000]⟩
abbrev S128x128 : Shape := ⟨2, ![128, 128]⟩
abbrev S128 : Shape := ⟨1, ![128]⟩
abbrev S256x64 : Shape := ⟨2, ![256, 64]⟩
abbrev S64 : Shape := ⟨1, ![64]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S10000x10000 : S_.BroadcastsInDim S10000x10000 (![] : Fin 0 → Fin S10000x10000.rank)
  reducesTo_S10000x10000_S_d0_1 : S10000x10000.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S256x64 : S_.BroadcastsInDim S256x64 (![] : Fin 0 → Fin S256x64.rank)
  reducesTo_S256x64_S_d0_1 : S256x64.ReducesTo [0, 1] S_
  bcast_S_S64 : S_.BroadcastsInDim S64 (![] : Fin 0 → Fin S64.rank)
  reducesTo_S64_S_d0 : S64.ReducesTo [0] S_

variable [Facts]

def fn_part2 {F : FTy → Type} [FloatOps F] (main_arg7 : FVec F S64 .f32) (main_v33 : IVec S_ 1) : IVec S_ 1 :=
  let main_v34 : FVec F S64 .f32 := Host.absf main_arg7
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  main_v38

def fn_part1 {F : FTy → Type} [FloatOps F] (main_arg4 : FVec F S128x128 .f32) (main_arg5 : FVec F S128 .f32) (main_arg6 : FVec F S256x64 .f32) (main_arg7 : FVec F S64 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg4
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg5
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S256x64 .f32 := Host.absf main_arg6
  let main_cst_10 : FVec F S_ .f32 := constant S_ .f32 0x7F800000#32
  let main_v30 : FVec F S256x64 .f32 := broadcastInDim S256x64 ![] bcast_S_S256x64 main_cst_10
  let main_v31 : IVec S256x64 1 := cmpf .olt main_v29 main_v30
  let main_c_11 : IVec S_ 1 := constantI S_ 1 1#1
  let main_v32 : IVec S_ 1 := (fun x v => Host.reduce IntOp.andi x v reducesTo_S256x64_S_d0_1 h_S_) main_v31 main_c_11
  let main_v33 : IVec S_ 1 := andi main_v28 main_v32
  fn_part2 (F := F) main_arg7 main_v33

def fn {F : FTy → Type} [FloatOps F] (main_arg0 : FVec F S10000x128 .f32) (main_arg1 : FVec F S10000x10000 .f32) (main_arg2 : FVec F S128x128 .f32) (main_arg3 : FVec F S128 .f32) (main_arg4 : FVec F S128x128 .f32) (main_arg5 : FVec F S128 .f32) (main_arg6 : FVec F S256x64 .f32) (main_arg7 : FVec F S64 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S10000x10000 .f32 := Host.absf main_arg1
  let main_cst_0 : FVec F S_ .f32 := constant S_ .f32 0x7F800000#32
  let main_v5 : FVec F S10000x10000 .f32 := broadcastInDim S10000x10000 ![] bcast_S_S10000x10000 main_cst_0
  let main_v6 : IVec S10000x10000 1 := cmpf .olt main_v4 main_v5
  let main_c_1 : IVec S_ 1 := constantI S_ 1 1#1
  let main_v7 : IVec S_ 1 := (fun x v => Host.reduce IntOp.andi x v reducesTo_S10000x10000_S_d0_1 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg4 main_arg5 main_arg6 main_arg7 main_v13 main_v16
-- ==== Kernel.lean ====
abbrev S10000x128 : Shape := ⟨2, ![10000, 128]⟩
abbrev S10000x10000 : Shape := ⟨2, ![10000, 10000]⟩
abbrev S128x128 : Shape := ⟨2, ![128, 128]⟩
abbrev S128 : Shape := ⟨1, ![128]⟩
abbrev S256x64 : Shape := ⟨2, ![256, 64]⟩
abbrev S64 : Shape := ⟨1, ![64]⟩
abbrev S1x128 : Shape := ⟨2, ![1, 128]⟩
abbrev S400x10000 : Shape := ⟨2, ![400, 10000]⟩
abbrev S400x128 : Shape := ⟨2, ![400, 128]⟩
abbrev S128x64 : Shape := ⟨2, ![128, 64]⟩
abbrev S1x64 : Shape := ⟨2, ![1, 64]⟩
abbrev S10000x64 : Shape := ⟨2, ![10000, 64]⟩
abbrev S400x64 : Shape := ⟨2, ![400, 64]⟩
abbrev S400 : Shape := ⟨1, ![400]⟩
abbrev S400x1 : Shape := ⟨2, ![400, 1]⟩

abbrev nBuf : Space → Nat
  | .hbm => 17
  | .vmem => 23
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S256x64, .f32⟩
  | .hbm, ⟨7, _⟩ => ⟨S64, .f32⟩
  | .hbm, ⟨8, _⟩ => ⟨S10000x128, .bf16⟩
  | .hbm, ⟨9, _⟩ => ⟨S1x128, .f32⟩
  | .hbm, ⟨10, _⟩ => ⟨S10000x128, .f32⟩
  | .hbm, ⟨11, _⟩ => ⟨S10000x128, .bf16⟩
  | .hbm, ⟨12, _⟩ => ⟨S1x128, .f32⟩
  | .hbm, ⟨13, _⟩ => ⟨S128x64, .f32⟩
  | .hbm, ⟨14, _⟩ => ⟨S128x64, .f32⟩
  | .hbm, ⟨15, _⟩ => ⟨S1x64, .f32⟩
  | .hbm, ⟨16, _⟩ => ⟨S10000x64, .f32⟩
  | .local _ .vmem, ⟨0, _⟩ => ⟨S10000x128, .f32⟩
  | .local _ .vmem, ⟨1, _⟩ => ⟨S128x128, .f32⟩
  | .local _ .vmem, ⟨2, _⟩ => ⟨S10000x128, .bf16⟩
  | .local _ .vmem, ⟨3, _⟩ => ⟨S400x10000, .f32⟩
  | .local _ .vmem, ⟨4, _⟩ => ⟨S400x10000, .f32⟩
  | .local _ .vmem, ⟨5, _⟩ => ⟨S10000x128, .bf16⟩
  | .local _ .vmem, ⟨6, _⟩ => ⟨S1x128, .f32⟩
  | .local _ .vmem, ⟨7, _⟩ => ⟨S400x128, .f32⟩
  | .local _ .vmem, ⟨8, _⟩ => ⟨S400x128, .f32⟩
  | .local _ .vmem, ⟨9, _⟩ => ⟨S10000x128, .f32⟩
  | .local _ .vmem, ⟨10, _⟩ => ⟨S128x128, .f32⟩
  | .local _ .vmem, ⟨11, _⟩ => ⟨S10000x128, .bf16⟩
  | .local _ .vmem, ⟨12, _⟩ => ⟨S400x10000, .f32⟩
  | .local _ .vmem, ⟨13, _⟩ => ⟨S400x10000, .f32⟩
  | .local _ .vmem, ⟨14, _⟩ => ⟨S10000x128, .bf16⟩
  | .local _ .vmem, ⟨15, _⟩ => ⟨S400x128, .f32⟩
  | .local _ .vmem, ⟨16, _⟩ => ⟨S400x128, .f32⟩
  | .local _ .vmem, ⟨17, _⟩ => ⟨S1x128, .f32⟩
  | .local _ .vmem, ⟨18, _⟩ => ⟨S128x64, .f32⟩
  | .local _ .vmem, ⟨19, _⟩ => ⟨S128x64, .f32⟩
  | .local _ .vmem, ⟨20, _⟩ => ⟨S1x64, .f32⟩
  | .local _ .vmem, ⟨21, _⟩ => ⟨S400x64, .f32⟩
  | .local _ .vmem, ⟨22, _⟩ => ⟨S400x64, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc1_stg0_0 : Ref sig .tc := ⟨.vmem, 3, rfl⟩
abbrev cc1_stg0_1 : Ref sig .tc := ⟨.vmem, 4, rfl⟩
abbrev cc1_stg1_0 : Ref sig .tc := ⟨.vmem, 5, rfl⟩
abbrev cc1_stg2_0 : Ref sig .tc := ⟨.vmem, 6, rfl⟩
abbrev cc1_stg3_0 : Ref sig .tc := ⟨.vmem, 7, rfl⟩
abbrev cc1_stg3_1 : Ref sig .tc := ⟨.vmem, 8, rfl⟩
abbrev cc2_stg0_0 : Ref sig .tc := ⟨.vmem, 9, rfl⟩
abbrev cc2_stg1_0 : Ref sig .tc := ⟨.vmem, 10, rfl⟩
abbrev cc2_stg2_0 : Ref sig .tc := ⟨.vmem, 11, rfl⟩
abbrev cc3_stg0_0 : Ref sig .tc := ⟨.vmem, 12, rfl⟩
abbrev cc3_stg0_1 : Ref sig .tc := ⟨.vmem, 13, rfl⟩
abbrev cc3_stg1_0 : Ref sig .tc := ⟨.vmem, 14, rfl⟩
abbrev cc3_stg2_0 : Ref sig .tc := ⟨.vmem, 15, rfl⟩
abbrev cc3_stg2_1 : Ref sig .tc := ⟨.vmem, 16, rfl⟩
abbrev cc3_stg3_0 : Ref sig .tc := ⟨.vmem, 17, rfl⟩
abbrev cc3_stg4_0 : Ref sig .tc := ⟨.vmem, 18, rfl⟩
abbrev cc3_stg5_0 : Ref sig .tc := ⟨.vmem, 19, rfl⟩
abbrev cc3_stg6_0 : Ref sig .tc := ⟨.vmem, 20, rfl⟩
abbrev cc3_stg7_0 : Ref sig .tc := ⟨.vmem, 21, rfl⟩
abbrev cc3_stg7_1 : Ref sig .tc := ⟨.vmem, 22, rfl⟩
abbrev cc0_sem0_0 : DmaSem sig := 0
abbrev cc0_sem1_0 : DmaSem sig := 1
abbrev cc0_sem2_0 : DmaSem sig := 2
abbrev cc1_sem0_0 : DmaSem sig := 3
abbrev cc1_sem0_1 : DmaSem sig := 4
abbrev cc1_sem1_0 : DmaSem sig := 5
abbrev cc1_sem2_0 : DmaSem sig := 6
abbrev cc1_sem3_0 : DmaSem sig := 7
abbrev cc1_sem3_1 : DmaSem sig := 8
abbrev cc2_sem0_0 : DmaSem sig := 9
abbrev cc2_sem1_0 : DmaSem sig := 10
abbrev cc2_sem2_0 : DmaSem sig := 11
abbrev cc3_sem0_0 : DmaSem sig := 12
abbrev cc3_sem0_1 : DmaSem sig := 13
abbrev cc3_sem1_0 : DmaSem sig := 14
abbrev cc3_sem2_0 : DmaSem sig := 15
abbrev cc3_sem2_1 : DmaSem sig := 16
abbrev cc3_sem3_0 : DmaSem sig := 17
abbrev cc3_sem4_0 : DmaSem sig := 18
abbrev cc3_sem5_0 : DmaSem sig := 19
abbrev cc3_sem6_0 : DmaSem sig := 20
abbrev cc3_sem7_0 : DmaSem sig := 21
abbrev cc3_sem7_1 : DmaSem sig := 22

abbrev nD : Nat := 1
abbrev τ : Topo := Topo.v7x

variable {F : FTy → Type} [FloatOps F]

abbrev grid0 : Pipeline.Grid := .none

abbrev stage0_0 : Fin 1 → Memref sig .tc .vmem S10000x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S10000x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S400x10000 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S10000x128 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S400x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := .none

abbrev stage2_0 : Fin 1 → Memref sig .tc .vmem S10000x128 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))

abbrev stage2_2 : Fin 1 → Memref sig .tc .vmem S10000x128 .bf16 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_7 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S400x10000 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S10000x128 .bf16 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S400x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S1x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S128x64 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S128x64 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S1x64 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev stage3_7 : Fin 2 → Memref sig .tc .vmem S400x64 .f32 := fun | 0 => Memref.whole cc3_stg7_0 | 1 => Memref.whole cc3_stg7_1 | ⟨_ + 2, h⟩ => absurd h (Nat.not_lt.2 (Nat.le_add_left _ _))
abbrev sem3_7 : Fin 2 → DmaSem sig := fun | 0 => cc3_sem7_0 | 1 => cc3_sem7_1 | ⟨_ + 2, h⟩ => absurd h (Nat.not_lt.2 (Nat.le_add_left _ _))
abbrev reads3_7 : Fin grid3.rank → Bool := ![true]

class Facts₀ : Prop where
  inb_S10000x128_S10000x128_0_0 : ∀ a, (![0, 0] : Fin 2 → Nat) a + S10000x128.size a ≤ S10000x128.size a
  h_S10000x128 : 0 < S10000x128.numel
  inb_S128x128_S128x128_0_0 : ∀ a, (![0, 0] : Fin 2 → Nat) a + S128x128.size a ≤ S128x128.size a
  h_S128x128 : 0 < S128x128.numel
  bitsLt_bf16_f32 : FTy.bits .bf16 < FTy.bits .f32
  packedbf16_S10000x128_S10000x128_0_0 : (Rect.unit (s := S10000x128) ![0, 0] S10000x128.size inb_S10000x128_S10000x128_0_0).PackedRows (EltTy.packing .bf16)
  shapeCasts_S128_S1x128 : S128.ShapeCasts S1x128
  inb_S400x10000_S400x10000_0_0 : ∀ a, (![0, 0] : Fin 2 → Nat) a + S400x10000.size a ≤ S400x10000.size a
  h_S400x10000 : 0 < S400x10000.numel
  shapeCasts_S10000x128_S10000x128 : S10000x128.ShapeCasts S10000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S400x128 : S1x128.Broadcasts S400x128
  inb_S400x128_S400x128_0_0 : ∀ a, (![0, 0] : Fin 2 → Nat) a + S400x128.size a ≤ S400x128.size a
  h_S400x128 : 0 < S400x128.numel
  slices_S256x64_S128x64_0_0 : S256x64.Slices ![0, 0] S128x64
  slices_S256x64_S128x64_128_0 : S256x64.Slices ![128, 0] S128x64
  shapeCasts_S64_S1x64 : S64.ShapeCasts S1x64
  shapeCasts_S400x128_S400x128 : S400x128.ShapeCasts S400x128
  inb_S128x64_S128x64_0_0 : ∀ a, (![0, 0] : Fin 2 → Nat) a + S128x64.size a ≤ S128x64.size a
  h_S128x64 : 0 < S128x64.numel
  shapeCasts_S128x64_S128x64 : S128x64.ShapeCasts S128x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S400x64 : S1x64.Broadcasts S400x64
  reduces_S400x64_S400 : S400x64.Reduces [1] S400
  shapeCasts_S400_S400x1 : S400.ShapeCasts S400x1
  broadcasts_S400x1_S400x64 : S400x1.Broadcasts S400x64
  inb_S400x64_S400x64_0_0 : ∀ a, (![0, 0] : Fin 2 → Nat) a + S400x64.size a ≤ S400x64.size a
  h_S400x64 : 0 < S400x64.numel
  dot_S10000x128_S128x128_S10000x128_1_0_0_1_n_n_wf : DotDims.WF S10000x128 S128x128 S10000x128 [1] [0] [0] [1] [] []
  dot_S400x10000_S10000x128_S400x128_1_0_0_1_n_n_wf : DotDims.WF S400x10000 S10000x128 S400x128 [1] [0] [0] [1] [] []
  dot_S400x128_S128x64_S400x64_1_0_0_1_n_n_wf : DotDims.WF S400x128 S128x64 S400x64 [1] [0] [0] [1] [] []
  hstage0_0 : ∀ j, (stage0_0 j).IsWhole
  hstage0_1 : ∀ j, (stage0_1 j).IsWhole
  hstage0_2 : ∀ j, (stage0_2 j).IsWhole
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S400x10000.size a ≤ S10000x10000.size a
  hwx1_0 : ∀ i : grid1.Coords, EltTy.bits .f32 = 32 ∨ (Rect.block (s := S10000x10000) S400x10000.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S10000x128.size a ≤ S10000x128.size a
  hwx1_1 : ∀ i : grid1.Coords, EltTy.bits .bf16 = 32 ∨ (Rect.block (s := S10000x128) S10000x128.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S400x128.size a ≤ S10000x128.size a
  hwx1_3 : ∀ i : grid1.Coords, EltTy.bits .f32 = 32 ∨ (Rect.block (s := S10000x128) S400x128.size (cc1_transform_3 i) (hinb1_3 i)).WholeWords (EltTy.packing .f32)
  hstage2_0 : ∀ j, (stage2_0 j).IsWhole
  hstage2_1 : ∀ j, (stage2_1 j).IsWhole
  hstage2_2 : ∀ j, (stage2_2 j).IsWhole
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S400x10000.size a ≤ S10000x10000.size a
  hwx3_0 : ∀ i : grid3.Coords, EltTy.bits .f32 = 32 ∨ (Rect.block (s := S10000x10000) S400x10000.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S10000x128.size a ≤ S10000x128.size a
  hwx3_1 : ∀ i : grid3.Coords, EltTy.bits .bf16 = 32 ∨ (Rect.block (s := S10000x128) S10000x128.size (cc3_transform_1 i) (hinb3_1 i)).WholeWords (EltTy.packing .bf16)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S400x128.size a ≤ S10000x128.size a
  hwx3_2 : ∀ i : grid3.Coords, EltTy.bits .f32 = 32 ∨ (Rect.block (s := S10000x128) S400x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x128.size a ≤ S1x128.size a
  hwx3_3 : ∀ i : grid3.Coords, EltTy.bits .f32 = 32 ∨ (Rect.block (s := S1x128) S1x128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S128x64.size a ≤ S128x64.size a
  hwx3_4 : ∀ i : grid3.Coords, EltTy.bits .f32 = 32 ∨ (Rect.block (s := S128x64) S128x64.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S128x64.size a ≤ S128x64.size a
  hwx3_5 : ∀ i : grid3.Coords, EltTy.bits .f32 = 32 ∨ (Rect.block (s := S128x64) S128x64.size (cc3_transform_5 i) (hinb3_5 i)).WholeWords (EltTy.packing .f32)
  hstage3_6 : ∀ j, (stage3_6 j).IsWhole
  nbuf3_6 : grid3.bufCount reads3_6 true = 1
  hreads3_6 : ∀ i i' : grid3.Coords, (∀ a, reads3_6 a = true → i a = i' a) → cc3_transform_6 i = cc3_transform_6 i'
  hinb3_6 : ∀ (i : grid3.Coords) a, (cc3_transform_6 i a + 1) * S1x64.size a ≤ S1x64.size a
  hwx3_6 : ∀ i : grid3.Coords, EltTy.bits .f32 = 32 ∨ (Rect.block (s := S1x64) S1x64.size (cc3_transform_6 i) (hinb3_6 i)).WholeWords (EltTy.packing .f32)
  hstage3_7 : ∀ j, (stage3_7 j).IsWhole
  nbuf3_7 : grid3.bufCount reads3_7 false = 2
  hreads3_7 : ∀ i i' : grid3.Coords, (∀ a, reads3_7 a = true → i a = i' a) → cc3_transform_7 i = cc3_transform_7 i'
  hinb3_7 : ∀ (i : grid3.Coords) a, (cc3_transform_7 i a + 1) * S400x64.size a ≤ S10000x64.size a
  hwx3_7 : ∀ i : grid3.Coords, EltTy.bits .f32 = 32 ∨ (Rect.block (s := S10000x64) S400x64.size (cc3_transform_7 i) (hinb3_7 i)).WholeWords (EltTy.packing .f32)

variable [Facts₀]

def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S400x10000_S10000x128_S400x128_1_0_0_1_n_n : DotDims S400x10000 S10000x128 S400x128 where
  lhsContracting := [1]
  rhsContracting := [0]
  lhsNonContracting := [0]
  rhsNonContracting := [1]
  lhsBatch := []
  rhsBatch := []
  wf := dot_S400x10000_S10000x128_S400x128_1_0_0_1_n_n_wf
def dot_S400x128_S128x64_S400x64_1_0_0_1_n_n : DotDims S400x128 S128x64 S400x64 where
  lhsContracting := [1]
  rhsContracting := [0]
  lhsNonContracting := [0]
  rhsNonContracting := [1]
  lhsBatch := []
  rhsBatch := []
  wf := dot_S400x128_S128x64_S400x64_1_0_0_1_n_n_wf

abbrev win0_0 : Pipeline.Window sig grid0 :=
  Pipeline.Window.whole (Memref.whole main_arg0) false false (stage0_0 0) (sem0_0 0) (Memref.isWhole_whole _) (hstage0_0 0)

abbrev win0_1 : Pipeline.Window sig grid0 :=
  Pipeline.Window.whole (Memref.whole main_arg2) false false (stage0_1 0) (sem0_1 0) (Memref.isWhole_whole _) (hstage0_1 0)

abbrev win0_2 : Pipeline.Window sig grid0 :=
  Pipeline.Window.whole (Memref.whole main_v0) true false (stage0_2 0) (sem0_2 0) (Memref.isWhole_whole _) (hstage0_2 0)

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg1) S400x10000.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0) S10000x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v1) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v2) S400x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.whole (Memref.whole main_v2) false false (stage2_0 0) (sem2_0 0) (Memref.isWhole_whole _) (hstage2_0 0)

abbrev win2_1 : Pipeline.Window sig grid2 :=
  Pipeline.Window.whole (Memref.whole main_arg4) false false (stage2_1 0) (sem2_1 0) (Memref.isWhole_whole _) (hstage2_1 0)

abbrev win2_2 : Pipeline.Window sig grid2 :=
  Pipeline.Window.whole (Memref.whole main_v3) true false (stage2_2 0) (sem2_2 0) (Memref.isWhole_whole _) (hstage2_2 0)

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_arg1) S400x10000.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v3) S10000x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v2) S400x128.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v4) S1x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v5) S128x64.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v6) S128x64.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v7) S1x64.size cc3_transform_6 reads3_6 false true 1 stage3_6 sem3_6
    hrank3 hreads3_6 hinb3_6 nbuf3_6 (Memref.isWhole_whole _) hwx3_6 hstage3_6

abbrev win3_7 : Pipeline.Window sig grid3 :=
  Pipeline.Window.ofSpec (Memref.whole main_v8) S400x64.size cc3_transform_7 reads3_7 true false 2 stage3_7 sem3_7
    hrank3 hreads3_7 hinb3_7 nbuf3_7 (Memref.isWhole_whole _) hwx3_7 hstage3_7

abbrev win3 : Fin 8 → Pipeline.Window sig grid3 := fun | 0 => win3_0 | 1 => win3_1 | 2 => win3_2 | 3 => win3_3 | 4 => win3_4 | 5 => win3_5 | 6 => win3_6 | 7 => win3_7 | ⟨_ + 8, h⟩ => absurd h (Nat.not_lt.2 (Nat.le_add_left _ _))
abbrev spec3 : Fin 8 → Pipeline.WinSpec sig grid3.rank := fun w => (win3 w).toWinSpec

class Facts : Prop extends Facts₀ where

variable [Facts]
-- ==== ReferenceIdeal.lean ====
abbrev S10000x128 : Shape := ⟨2, ![10000, 128]⟩
abbrev S10000x10000 : Shape := ⟨2, ![10000, 10000]⟩
abbrev S128x128 : Shape := ⟨2, ![128, 128]⟩
abbrev S128 : Shape := ⟨1, ![128]⟩
abbrev S256x64 : Shape := ⟨2, ![256, 64]⟩
abbrev S64 : Shape := ⟨1, ![64]⟩
abbrev S1x128 : Shape := ⟨2, ![1, 128]⟩
abbrev S_ : Shape := ⟨0, ![]⟩
abbrev S10000x256 : Shape := ⟨2, ![10000, 256]⟩
abbrev S10000x64 : Shape := ⟨2, ![10000, 64]⟩
abbrev S1x64 : Shape := ⟨2, ![1, 64]⟩
abbrev S10000 : Shape := ⟨1, ![10000]⟩
abbrev S10000x1 : Shape := ⟨2, ![10000, 1]⟩

abbrev nBuf : Space → Nat
  | .hbm => 44
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S256x64, .f32⟩
  | .hbm, ⟨7, _⟩ => ⟨S64, .f32⟩
  | .hbm, ⟨8, _⟩ => ⟨S10000x128, .f32⟩
  | .hbm, ⟨9, _⟩ => ⟨S10000x128, .f32⟩
  | .hbm, ⟨10, _⟩ => ⟨S1x128, .f32⟩
  | .hbm, ⟨11, _⟩ => ⟨S10000x128, .f32⟩
  | .hbm, ⟨12, _⟩ => ⟨S10000x128, .f32⟩
  | .hbm, ⟨13, _⟩ => ⟨S_, .f32⟩
  | .hbm, ⟨14, _⟩ => ⟨S10000x128, .f32⟩
  | .hbm, ⟨15, _⟩ => ⟨S10000x128, .f32⟩
  | .hbm, ⟨16, _⟩ => ⟨S10000x128, .f32⟩
  | .hbm, ⟨17, _⟩ => ⟨S10000x128, .f32⟩
  | .hbm, ⟨18, _⟩ => ⟨S1x128, .f32⟩
  | .hbm, ⟨19, _⟩ => ⟨S10000x128, .f32⟩
  | .hbm, ⟨20, _⟩ => ⟨S10000x128, .f32⟩
  | .hbm, ⟨21, _⟩ => ⟨S_, .f32⟩
  | .hbm, ⟨22, _⟩ => ⟨S10000x128, .f32⟩
  | .hbm, ⟨23, _⟩ => ⟨S10000x128, .f32⟩
  | .hbm, ⟨24, _⟩ => ⟨S10000x256, .f32⟩
  | .hbm, ⟨25, _⟩ => ⟨S10000x64, .f32⟩
  | .hbm, ⟨26, _⟩ => ⟨S1x64, .f32⟩
  | .hbm, ⟨27, _⟩ => ⟨S10000x64, .f32⟩
  | .hbm, ⟨28, _⟩ => ⟨S10000x64, .f32⟩
  | .hbm, ⟨29, _⟩ => ⟨S_, .f32⟩
  | .hbm, ⟨30, _⟩ => ⟨S10000, .f32⟩
  | .hbm, ⟨31, _⟩ => ⟨S_, .f32⟩
  | .hbm, ⟨32, _⟩ => ⟨S10000, .f32⟩
  | .hbm, ⟨33, _⟩ => ⟨S10000, .f32⟩
  | .hbm, ⟨34, _⟩ => ⟨S10000x1, .f32⟩
  | .hbm, ⟨35, _⟩ => ⟨S10000x64, .f32⟩
  | .hbm, ⟨36, _⟩ => ⟨S10000x64, .f32⟩
  | .hbm, ⟨37, _⟩ => ⟨S10000x64, .f32⟩
  | .hbm, ⟨38, _⟩ => ⟨S_, .f32⟩
  | .hbm, ⟨39, _⟩ => ⟨S10000, .f32⟩
  | .hbm, ⟨40, _⟩ => ⟨S10000x1, .f32⟩
  | .hbm, ⟨41, _⟩ => ⟨S10000x1, .f32⟩
  | .hbm, ⟨42, _⟩ => ⟨S10000x64, .f32⟩
  | .hbm, ⟨43, _⟩ => ⟨S10000x64, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_call0_cst : Ref sig .tc := ⟨.hbm, 13, rfl⟩
abbrev main_call0_v0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_call1_cst : Ref sig .tc := ⟨.hbm, 21, rfl⟩
abbrev main_call1_v0 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_call2_cst : Ref sig .tc := ⟨.hbm, 29, rfl⟩
abbrev main_call2_v0 : Ref sig .tc := ⟨.hbm, 30, rfl⟩
abbrev main_call2_cst_0 : Ref sig .tc := ⟨.hbm, 31, rfl⟩
abbrev main_call2_v1 : Ref sig .tc := ⟨.hbm, 32, rfl⟩
abbrev main_call2_v2 : Ref sig .tc := ⟨.hbm, 33, rfl⟩
abbrev main_call2_v3 : Ref sig .tc := ⟨.hbm, 34, rfl⟩
abbrev main_call2_v4 : Ref sig .tc := ⟨.hbm, 35, rfl⟩
abbrev main_call2_v5 : Ref sig .tc := ⟨.hbm, 36, rfl⟩
abbrev main_call2_v6 : Ref sig .tc := ⟨.hbm, 37, rfl⟩
abbrev main_call2_cst_1 : Ref sig .tc := ⟨.hbm, 38, rfl⟩
abbrev main_call2_v7 : Ref sig .tc := ⟨.hbm, 39, rfl⟩
abbrev main_call2_v8 : Ref sig .tc := ⟨.hbm, 40, rfl⟩
abbrev main_call2_v9 : Ref sig .tc := ⟨.hbm, 41, rfl⟩
abbrev main_call2_v10 : Ref sig .tc := ⟨.hbm, 42, rfl⟩
abbrev main_v17 : Ref sig .tc := ⟨.hbm, 43, rfl⟩

abbrev nD : Nat := 1
abbrev τ : Topo := Topo.v7x

variable {F : FTy → Type} [FloatOps F]

class Facts₀ : Prop where
  bcast_S128_S1x128_1 : S128.BroadcastsInDim S1x128 (![1] : Fin 1 → Fin S1x128.rank)
  bcast_S1x128_S10000x128_0_1 : S1x128.BroadcastsInDim S10000x128 (![0, 1] : Fin 2 → Fin S10000x128.rank)
  bcast_S_S10000x128 : S_.BroadcastsInDim S10000x128 (![] : Fin 0 → Fin S10000x128.rank)
  concatenates_S10000x128_S10000x128_S10000x256_d1 : Shape.Concatenates [S10000x128, S10000x128] S10000x256 1
  bcast_S64_S1x64_1 : S64.BroadcastsInDim S1x64 (![1] : Fin 1 → Fin S1x64.rank)
  bcast_S1x64_S10000x64_0_1 : S1x64.BroadcastsInDim S10000x64 (![0, 1] : Fin 2 → Fin S10000x64.rank)
  reducesTo_S10000x64_S10000_d1 : S10000x64.ReducesTo [1] S10000
  h_S_ : 0 < S_.numel
  bcast_S_S10000 : S_.BroadcastsInDim S10000 (![] : Fin 0 → Fin S10000.rank)
  bcast_S10000_S10000x1_0 : S10000.BroadcastsInDim S10000x1 (![0] : Fin 1 → Fin S10000x1.rank)
  bcast_S10000x1_S10000x64_0_1 : S10000x1.BroadcastsInDim S10000x64 (![0, 1] : Fin 2 → Fin S10000x64.rank)
  dot_S10000x128_S128x128_S10000x128_1_0_0_1_n_n_wf : DotDims.WF S10000x128 S128x128 S10000x128 [1] [0] [0] [1] [] []
  dot_S10000x10000_S10000x128_S10000x128_1_0_0_1_n_n_wf : DotDims.WF S10000x10000 S10000x128 S10000x128 [1] [0] [0] [1] [] []
  dot_S10000x256_S256x64_S10000x64_1_0_0_1_n_n_wf : DotDims.WF S10000x256 S256x64 S10000x64 [1] [0] [0] [1] [] []

variable [Facts₀]

def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S10000x10000_S10000x128_S10000x128_1_0_0_1_n_n : DotDims S10000x10000 S10000x128 S10000x128 where
  lhsContracting := [1]
  rhsContracting := [0]
  lhsNonContracting := [0]
  rhsNonContracting := [1]
  lhsBatch := []
  rhsBatch := []
  wf := dot_S10000x10000_S10000x128_S10000x128_1_0_0_1_n_n_wf
def dot_S10000x256_S256x64_S10000x64_1_0_0_1_n_n : DotDims S10000x256 S256x64 S10000x64 where
  lhsContracting := [1]
  rhsContracting := [0]
  lhsNonContracting := [0]
  rhsNonContracting := [1]
  lhsBatch := []
  rhsBatch := []
  wf := dot_S10000x256_S256x64_S10000x64_1_0_0_1_n_n_wf

class Facts : Prop extends Facts₀ where

variable [Facts]
-- ==== Proof.Spec.lean ====
/-
  The network both programs compute, as functions on extended-real arrays.

  A graph-convolution layer sends node features x to relu(adj · (x · W) + b); two layers are stacked, their outputs
  are concatenated along the feature axis, a linear map with bias gives the class logits, and each row of logits is
  replaced by its log-softmax: the row minus its maximum, minus the logarithm of the sum of the exponentials of those
  differences.  Every stage below acts on each row independently of the other rows (a row of adj · s is a row of adj
  against all of s), so each is stated for an array of n rows: n = 10000 is the whole array and n = 400 one block of rows.

  The product with the concatenated features splits as the sum of the products of each half of the features with the
  matching half of the weight rows (`logits_split`); on the extended reals this is a regrouping of one finite sum, and
  needs no finiteness.
-/
import Idealize.ShloMosaic.PureOps.Ideal
import Idealize.ShloMosaic.Lib.ValueIdx

noncomputable section

namespace Cert.GcnSpec

open Idealize.ShloMosaic Idealize.ShloMosaic.ValueIdx

/-- An a × b array of extended reals. -/
abbrev Mat (a b : ℕ) : Type := (⟨2, ![a, b]⟩ : Shape).Idx → EReal

/-- The value of the zero word and of the word of −∞, kept as words: both programs use the same ones. -/
abbrev zeroW : EReal := Ideal.ofBits .f32 0x00000000#32
abbrev negInfW : EReal := Ideal.ofBits .f32 0xFF800000#32

/-- x · w for n rows of 128 features. -/
def support {n : ℕ} (x : Mat n 128) (w : Mat 128 128) : Mat n 128 :=
  fun i => ∑ l : Fin 128, x (ix2 (i 0) l) * w (ix2 l (i 1))

/-- relu(adj · s + b) for n rows of the adjacency matrix. -/
def layer {n : ℕ} (adj : Mat n 10000) (s : Mat 10000 128) (b : Fin 128 → EReal) : Mat n 128 :=
  fun i => max ((∑ l : Fin 10000, adj (ix2 (i 0) l) * s (ix2 l (i 1))) + b (i 1)) zeroW

/-- The logits as the kernel forms them: each layer's features against its own half of the weights. -/
def logitsSplit {n : ℕ} (x1 x2 : Mat n 128) (wt wb : Mat 128 64) (bl : Fin 64 → EReal) : Mat n 64 :=
  fun i => ((∑ l : Fin 128, x1 (ix2 (i 0) l) * wt (ix2 l (i 1))) + (∑ l : Fin 128, x2 (ix2 (i 0) l) * wb (ix2 l (i 1))))
    + bl (i 1)

/-- The two layers' features side by side. -/
def cat {n : ℕ} (x1 x2 : Mat n 128) : Mat n 256 :=
  fun i => if h : (i 1).val < 128 then x1 (ix2 (i 0) ⟨(i 1).val, h⟩)
    else x2 (ix2 (i 0) ⟨(i 1).val - 128, by have := idx2_lt1 i; omega⟩)

/-- The logits as the reference forms them: the concatenated features against all the weights. -/
def logitsCat {n : ℕ} (x1 x2 : Mat n 128) (wl : Mat 256 64) (bl : Fin 64 → EReal) : Mat n 64 :=
  fun i => (∑ l : Fin 256, cat x1 x2 (ix2 (i 0) l) * wl (ix2 l (i 1))) + bl (i 1)

/-- Rows 0 … 127 and rows 128 … 255 of the weights. -/
def top (wl : Mat 256 64) : Mat 128 64 := fun i => wl (ix2 ⟨(i 0).val, by have := idx2_lt0 i; omega⟩ (i 1))
def bot (wl : Mat 256 64) : Mat 128 64 := fun i => wl (ix2 ⟨128 + (i 0).val, by have := idx2_lt0 i; omega⟩ (i 1))

/-- The maximum of row r, folded from −∞. -/
def rowMax {n : ℕ} (L : Mat n 64) (r : Fin n) : EReal :=
  (Finset.univ : Finset (Fin 64)).fold max negInfW (fun c => L (ix2 r c))

/-- Row-wise log-softmax. -/
def logSoftmax {n : ℕ} (L : Mat n 64) : Mat n 64 :=
  fun i => (L i - rowMax L (i 0)) - Ideal.log (∑ c : Fin 64, Ideal.exp (L (ix2 (i 0) c) - rowMax L (i 0)))

/-- The whole network. -/
def network (h : Mat 10000 128) (adj : Mat 10000 10000) (w0 : Mat 128 128) (b0 : Fin 128 → EReal) (w1 : Mat 128 128)
    (b1 : Fin 128 → EReal) (wl : Mat 256 64) (bl : Fin 64 → EReal) : Mat 10000 64 :=
  logSoftmax (logitsCat (layer adj (support h w0) b0) (layer adj (support (layer adj (support h w0) b0) w1) b1) wl bl)

/-- A sum over 256 indices is the sum over the first 128 plus the sum over the last 128. -/
theorem sum_256 (f : Fin 256 → EReal) :
    (∑ l : Fin 256, f l) = (∑ l : Fin 128, f ⟨l.val, by omega⟩) + ∑ l : Fin 128, f ⟨128 + l.val, by omega⟩ := by
  have h := Fin.sum_univ_add (a := 128) (b := 128) (fun l : Fin (128 + 128) => f ⟨l.val, by omega⟩)
  exact h

/-- Columns 0 … 127 of the concatenation are the first array's, -/
theorem cat_left {n : ℕ} (x1 x2 : Mat n 128) (r : Fin n) (l : Fin 128) :
    cat x1 x2 (ix2 r (⟨l.val, by omega⟩ : Fin 256)) = x1 (ix2 r l) := by
  unfold cat
  split
  · rfl
  · rename_i h; exact absurd l.isLt h

/-- and columns 128 … 255 the second's. -/
theorem cat_right {n : ℕ} (x1 x2 : Mat n 128) (r : Fin n) (l : Fin 128) :
    cat x1 x2 (ix2 r (⟨128 + l.val, by omega⟩ : Fin 256)) = x2 (ix2 r l) := by
  unfold cat
  split
  · rename_i h
    have h' : 128 + l.val < 128 := h
    omega
  · refine congrArg x2 ?_
    funext d; apply Fin.ext
    match d with
    | ⟨0, _⟩ => rfl
    | ⟨1, _⟩ => show 128 + l.val - 128 = l.val; omega

/-- The product with the concatenated features is the sum of the two half products. -/
theorem logits_split {n : ℕ} (x1 x2 : Mat n 128) (wl : Mat 256 64) (bl : Fin 64 → EReal) :
    logitsSplit x1 x2 (top wl) (bot wl) bl = logitsCat x1 x2 wl bl := by
  funext i
  obtain ⟨r, c, rfl⟩ : ∃ (r : Fin n) (c : Fin 64), i = ix2 r c := ⟨i 0, i 1, eq_ix2 i⟩
  show ((∑ l : Fin 128, x1 (ix2 r l) * top wl (ix2 l c)) + (∑ l : Fin 128, x2 (ix2 r l) * bot wl (ix2 l c))) + bl c
     = (∑ l : Fin 256, cat x1 x2 (ix2 r l) * wl (ix2 l c)) + bl c
  rw [sum_256]
  refine congrArg (· + bl c) (congrArg₂ (· + ·) (Finset.sum_congr rfl fun l _ => ?_) (Finset.sum_congr rfl fun l _ => ?_))
  · rw [cat_left]; rfl
  · rw [cat_right]; rfl

end Cert.GcnSpec

end
-- ==== Proof.LibLaneSums.lean ====
/-
  Sums along one axis, and trailing unit axes, read at coordinates.

  On the extended reals a sum of a rank-3 array [a, b, c] along its middle axis, started from the neutral element, is at
  (p, f) the plain sum over k < b of the array at (p, k, f); a sum of an [a, b] array along its last axis is at p the sum
  over k < b of the array at (p, k).  A trailing unit axis moves no element: an [a] array seen as [a, 1] reads, at
  (p, 0), the array at p; an [a, b] array seen as [a, b, 1] reads, at (p, j, 0), the array at (p, j); and an [a, b, 1]
  array spread along its unit axis to [a, b, c] reads, at (p, j, f), the array at (p, j, 0).
-/
import Idealize.ShloMosaic.PureOps.Ideal.Laws
import Idealize.ShloMosaic.Lib.ValueIdx
import Idealize.ShloMosaic.Lib.Pipeline.Value

noncomputable section

namespace Cert.LibLaneSums

open Idealize.ShloMosaic Idealize.ShloMosaic.ValueIdx

variable {α : Type}

/-! ## Sums along one axis -/

/-- The source index above (p, f) with k on the summed middle axis is (p, k, f). -/
theorem lift_mid {a b c : ℕ} (h : (⟨3, ![a, b, c]⟩ : Shape).Reduces [1] ⟨2, ![a, c]⟩) (p : Fin a) (f : Fin c) (k : Fin b) :
    h.lift (ix2 p f) k = ix3 p k f := by
  funext d; apply Fin.ext
  show h.liftVal (ix2 p f) k.val d = (ix3 p k f d).val
  unfold Shape.Reduces.liftVal
  match d with
  | ⟨0, _⟩ => rfl
  | ⟨1, _⟩ => rfl
  | ⟨2, _⟩ => rfl

/-- The source index above p with k on the summed last axis is (p, k). -/
theorem lift_last {a b : ℕ} (h : (⟨2, ![a, b]⟩ : Shape).Reduces [1] ⟨1, ![a]⟩) (p : Fin a) (k : Fin b) :
    h.lift (ix1 p) k = ix2 p k := by
  funext d; apply Fin.ext
  show h.liftVal (ix1 p) k.val d = (ix2 p k d).val
  unfold Shape.Reduces.liftVal
  match d with
  | ⟨0, _⟩ => rfl
  | ⟨1, _⟩ => rfl

/-- A sum of an [a, b, c] array along its middle axis, from the neutral element, at (p, f): the sum over k of the
    array at (p, k, f). -/
theorem sum_mid_apply {a b c : ℕ} {φ : FTy} (src : FVec Ideal (⟨3, ![a, b, c]⟩ : Shape) φ) (acc : BitVec φ.bits)
    (h : (⟨3, ![a, b, c]⟩ : Shape).Reduces [1] ⟨2, ![a, c]⟩) (hφ : FKind.Formats φ) (hacc : acc = FKind.add.neutral φ hφ)
    (p : Fin a) (f : Fin c) :
    multiReduction .add [1] (⟨2, ![a, c]⟩ : Shape) src acc h hφ hacc (ix2 p f) = ∑ k : Fin b, src (ix3 p k f) :=
  (Ideal.multiReduction_add_single src acc h hφ hacc (ix2 p f)).trans
    (Finset.sum_congr rfl fun k _ => congrArg src (lift_mid h p f k))

/-- A sum of an [a, b] array along its last axis, from the neutral element, at p: the sum over k of the array at
    (p, k). -/
theorem sum_last_apply {a b : ℕ} {φ : FTy} (src : FVec Ideal (⟨2, ![a, b]⟩ : Shape) φ) (acc : BitVec φ.bits)
    (h : (⟨2, ![a, b]⟩ : Shape).Reduces [1] ⟨1, ![a]⟩) (hφ : FKind.Formats φ) (hacc : acc = FKind.add.neutral φ hφ)
    (p : Fin a) :
    multiReduction .add [1] (⟨1, ![a]⟩ : Shape) src acc h hφ hacc (ix1 p) = ∑ k : Fin b, src (ix2 p k) :=
  (Ideal.multiReduction_add_single src acc h hφ hacc (ix1 p)).trans
    (Finset.sum_congr rfl fun k _ => congrArg src (lift_last h p k))

/-! ## Trailing unit axes -/

/-- An [a] array seen as [a, 1] reads, at (p, u), the array at p. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    omega)

/-- An [a, b] array seen as [a, b, 1] reads, at (p, j, u), the array at (p, j). -/
theorem shapeCast_ab_ab1_apply {a b : ℕ} (x : (⟨2, ![a, b]⟩ : Shape).Idx → α)
    (h : (⟨2, ![a, b]⟩ : Shape).ShapeCasts ⟨3, ![a, b, 1]⟩) (p : Fin a) (j : Fin b) (u : Fin 1) :
    shapeCast ⟨3, ![a, b, 1]⟩ x h (ix3 p j u) = x (ix2 p j) :=
  shapeCast_apply x h _ _ (by
    have hu : u.val = 0 := by omega
    rw [Shape.rowMajor_val_three, Shape.rowMajor_val_two]
    show p.val * b + j.val = (p.val * b + j.val) * 1 + u.val
    omega)

/-- An [a, b, 1] array spread along its unit axis to [a, b, c] reads, at (p, j, f), the array at (p, j, 0). -/
theorem broadcastTo_ab1_abc_apply {a b c : ℕ} (v : (⟨3, ![a, b, 1]⟩ : Shape).Idx → α)
    (h : (⟨3, ![a, b, 1]⟩ : Shape).Broadcasts ⟨3, ![a, b, c]⟩) (p : Fin a) (j : Fin b) (f : Fin c) :
    broadcastTo ⟨3, ![a, b, c]⟩ v h (ix3 p j f) = v (ix3 p j (0 : Fin 1)) := by
  refine broadcastTo_apply v h (ix3 p j f) (ix3 p j (0 : Fin 1)) fun ax => ?_
  match ax with
  | ⟨0, _⟩ =>
    show p.val = if a = 1 then 0 else p.val
    split
    · have := p.isLt; omega
    · rfl
  | ⟨1, _⟩ =>
    show j.val = if b = 1 then 0 else j.val
    split
    · have := j.isLt; omega
    · rfl
  | ⟨2, _⟩ => rfl

end Cert.LibLaneSums

end
-- ==== Proof.LibHostRows.lean ====
/-
  Host operations on the rows of an [a, b] array, read at coordinates.

  Two arrays [a, b₁] and [a, b₂] laid side by side along the column axis read, at (p, q), the first at (p, q) when
  q < b₁ and the second at (p, q − b₁) otherwise.  A host reduction of an [a, b] array along its last axis by a
  commutative and associative operation is at p the fold of the operation over k < b of the array at (p, k), started
  from the initial value's one element; for the maximum on the extended reals that is the fold of max.
-/
import Idealize.ShloMosaic.PureOps.Ideal.Laws
import Idealize.ShloMosaic.PureOps.Reduce
import Idealize.ShloMosaic.Lib.ValueIdx
import Idealize.ShloMosaic.Lib.Pipeline.Value
import proofs.«147911_g58265526337850_cont_9to1c4b_403_3_alg».proof.Proof.LibLaneSums

noncomputable section

namespace Cert.LibHostRows

open Idealize.ShloMosaic Idealize.ShloMosaic.ValueIdx

variable {α : Type}

/-! ## Two arrays side by side -/

/-- The concatenation of an [a, b₁] and an [a, b₂] array along the column axis reads, at (p, q) with q in the first
    b₁ columns, the first array at (p, q). -/
theorem concatenate_cols_apply_left {a b₁ b₂ c : ℕ} (x₁ : (⟨2, ![a, b₁]⟩ : Shape).Idx → α)
    (x₂ : (⟨2, ![a, b₂]⟩ : Shape).Idx → α)
    (h : Shape.Concatenates [(⟨2, ![a, b₁]⟩ : Shape), (⟨2, ![a, b₂]⟩ : Shape)] (⟨2, ![a, c]⟩ : Shape) 1)
    (p : Fin a) (q : Fin c) (l : Fin b₁) (hq : l.val = q.val) :
    concatenate (⟨2, ![a, c]⟩ : Shape) 1 [⟨(⟨2, ![a, b₁]⟩ : Shape), x₁⟩, ⟨(⟨2, ![a, b₂]⟩ : Shape), x₂⟩] h (ix2 p q)
      = x₁ (ix2 p l) :=
  concatenate_pair_apply_left 1 x₁ x₂ h (ix2 p q) rfl (ix2 p l) (fun b => by
    match b with
    | ⟨0, _⟩ => rfl
    | ⟨1, _⟩ => exact hq)

/-- The same concatenation reads, at (p, q) with q past the first b₁ columns, the second array at (p, q − b₁). -/
theorem concatenate_cols_apply_right {a b₁ b₂ c : ℕ} (x₁ : (⟨2, ![a, b₁]⟩ : Shape).Idx → α)
    (x₂ : (⟨2, ![a, b₂]⟩ : Shape).Idx → α)
    (h : Shape.Concatenates [(⟨2, ![a, b₁]⟩ : Shape), (⟨2, ![a, b₂]⟩ : Shape)] (⟨2, ![a, c]⟩ : Shape) 1)
    (p : Fin a) (q : Fin c) (l : Fin b₂) (hq : l.val + b₁ = q.val) :
    concatenate (⟨2, ![a, c]⟩ : Shape) 1 [⟨(⟨2, ![a, b₁]⟩ : Shape), x₁⟩, ⟨(⟨2, ![a, b₂]⟩ : Shape), x₂⟩] h (ix2 p q)
      = x₂ (ix2 p l) :=
  concatenate_pair_apply_right 1 x₁ x₂ h (ix2 p q) rfl rfl (ix2 p l)
    (fun b hb => by
      match b with
      | ⟨0, _⟩ => rfl
      | ⟨1, _⟩ => exact absurd rfl hb)
    hq

/-! ## A host reduction along the last axis -/

/-- A host reduction of an [a, b] array along its last axis by a commutative and associative operation is, at p, the
    fold of the operation over k < b of the array at (p, k), from the initial value's element. -/
theorem reduce_last_apply {a b : ℕ} {u : Shape} (f : α → α → α) [Std.Commutative f] [Std.Associative f]
    (x : (⟨2, ![a, b]⟩ : Shape).Idx → α) (init : u.Idx → α)
    (h' : (⟨2, ![a, b]⟩ : Shape).ReducesTo [1] ⟨1, ![a]⟩) (h : (⟨2, ![a, b]⟩ : Shape).Reduces [1] ⟨1, ![a]⟩)
    (hu : 0 < u.numel) (p : Fin a) :
    Host.reduce f x init h' hu (ix1 p)
      = (Finset.univ : Finset (Fin b)).fold f (init (Shape.Idx.first hu)) (fun k => x (ix2 p k)) :=
  (Host.reduce_eq_fold_single f x init h' h hu (ix1 p)).trans
    (congrArg (fun g : Fin b → α => (Finset.univ : Finset (Fin b)).fold f (init (Shape.Idx.first hu)) g)
      (funext fun k => congrArg x (Cert.LibLaneSums.lift_last h p k)))

/-- On the extended reals the host's maximum along the last axis of an [a, b] array is, at p, the fold of max over
    k < b of the array at (p, k), from the initial value's element. -/
theorem reduce_max_last_apply {a b : ℕ} {u : Shape} {φ : FTy} (x : FVec Ideal (⟨2, ![a, b]⟩ : Shape) φ)
    (init : u.Idx → Ideal φ)
    (h' : (⟨2, ![a, b]⟩ : Shape).ReducesTo [1] ⟨1, ![a]⟩) (h : (⟨2, ![a, b]⟩ : Shape).Reduces [1] ⟨1, ![a]⟩)
    (hu : 0 < u.numel) (p : Fin a) :
    Host.reduce (FloatOps.maximumf (F := Ideal) (φ := φ)) x init h' hu (ix1 p)
      = (Finset.univ : Finset (Fin b)).fold max (init (Shape.Idx.first hu)) (fun k => x (ix2 p k)) :=
  reduce_last_apply (FloatOps.maximumf (F := Ideal) (φ := φ)) x init h' h hu p

/-- A fold of max started from b is no smaller than b, so taking the maximum with b again changes nothing. -/
theorem max_fold_max_self {ι β : Type} [LinearOrder β] (s : Finset ι) (b : β) (g : ι → β) :
    max b (s.fold max b g) = s.fold max b g :=
  max_eq_right ((Finset.le_fold_max b).2 (Or.inl le_rfl))

end Cert.LibHostRows

end
-- ==== Proof.ReferenceStages.lean ====
/-
  The reference program's run, stage by stage, is the network of the specification.

  Each stage of the run read back one host operation at a time is an equation between whole arrays, proved index by
  index: the product with the weights is `support`; the product with the adjacency matrix, plus the bias spread over
  the rows, under the maximum with the zero word, is `layer`; the concatenation along the feature axis is `cat`; the
  product with the output weights plus the bias is `logitsCat`; and the log-softmax tail — the row maximum folded from
  the word of −∞ (a second maximum with that word changes nothing, the fold being at least its start), the row minus
  it, the exponentials summed from the zero word, the logarithm subtracted — is `logSoftmax`.
-/
import proofs.«147911_g58265526337850_cont_9to1c4b_403_3_alg».proof.Proof.RefRead
import proofs.«147911_g58265526337850_cont_9to1c4b_403_3_alg».proof.Proof.Spec
import proofs.«147911_g58265526337850_cont_9to1c4b_403_3_alg».proof.Proof.LibHostRows
import Idealize.ShloMosaic.Lib.ValueIdx
import Idealize.ShloMosaic.PureOps.Ideal.Laws

noncomputable section

namespace Cert.ReferenceIdeal.RefValue

open Idealize.ShloMosaic Idealize.ShloMosaic.ValueIdx Cert.ReferenceIdeal Cert.GcnSpec

/-! ## Indices and the specification's functions at coordinates -/

/-- Two rank-2 indices with the same coordinates are equal. -/
theorem idx2_ext {n0 n1 : ℕ} (f g : (⟨2, ![n0, n1]⟩ : Shape).Idx) (h0 : (f 0).val = (g 0).val)
    (h1 : (f 1).val = (g 1).val) : f = g :=
  funext fun a => Fin.ext (by match a with | ⟨0, _⟩ => exact h0 | ⟨1, _⟩ => exact h1)

/-- Two rank-1 indices with the same coordinate are equal. -/
theorem idx1_ext {n0 : ℕ} (f g : (⟨1, ![n0]⟩ : Shape).Idx) (h0 : (f 0).val = (g 0).val) : f = g :=
  funext fun a => Fin.ext (by match a with | ⟨0, _⟩ => exact h0)

theorem support_apply {n : ℕ} (x : Mat n 128) (w : Mat 128 128) (r : Fin n) (c : Fin 128) :
    support x w (ix2 r c) = ∑ l : Fin 128, x (ix2 r l) * w (ix2 l c) := rfl

theorem layer_apply {n : ℕ} (adj : Mat n 10000) (s : Mat 10000 128) (b : Fin 128 → EReal) (r : Fin n) (c : Fin 128) :
    layer adj s b (ix2 r c) = max ((∑ l : Fin 10000, adj (ix2 r l) * s (ix2 l c)) + b c) zeroW := rfl

theorem logitsCat_apply {n : ℕ} (x1 x2 : Mat n 128) (wl : Mat 256 64) (bl : Fin 64 → EReal) (r : Fin n) (c : Fin 64) :
    logitsCat x1 x2 wl bl (ix2 r c) = (∑ l : Fin 256, cat x1 x2 (ix2 r l) * wl (ix2 l c)) + bl c := rfl

theorem logSoftmax_apply {n : ℕ} (L : Mat n 64) (r : Fin n) (c : Fin 64) :
    logSoftmax L (ix2 r c)
      = (L (ix2 r c) - rowMax L r) - Ideal.log (∑ c' : Fin 64, Ideal.exp (L (ix2 r c') - rowMax L r)) := rfl

variable (x0 : (⟨S10000x128, .f32⟩ : BufTy).Contents (Elt Ideal))
  (x1 : (⟨S10000x10000, .f32⟩ : BufTy).Contents (Elt Ideal))
  (x2 : (⟨S128x128, .f32⟩ : BufTy).Contents (Elt Ideal))
  (x3 : (⟨S128, .f32⟩ : BufTy).Contents (Elt Ideal))
  (x4 : (⟨S128x128, .f32⟩ : BufTy).Contents (Elt Ideal))
  (x5 : (⟨S128, .f32⟩ : BufTy).Contents (Elt Ideal))
  (x6 : (⟨S256x64, .f32⟩ : BufTy).Contents (Elt Ideal))
  (x7 : (⟨S64, .f32⟩ : BufTy).Contents (Elt Ideal))

/-! ## The two graph-convolution layers -/

/-- The first product: the node features against the first layer's weights. -/
theorem stage_v0 : ReadP.val_main_v0 (F := Ideal) x0 x2 = support x0 x2 := by
  funext i
  obtain ⟨r, c, rfl⟩ : ∃ (r : Fin 10000) (c : Fin 128), i = ix2 r c := ⟨i 0, i 1, eq_ix2 i⟩
  rw [ReadP.val_main_v0_apply, support_apply]
  refine Finset.sum_congr rfl fun k _ => ?_
  rw [idx2_ext (ReadP.lidx_main_v0 (ix2 r c) k) (ix2 r k) rfl rfl,
    idx2_ext (ReadP.ridx_main_v0 (ix2 r c) k) (ix2 k c) rfl rfl]

/-- The first layer: the adjacency matrix against the first product, plus the bias, under the maximum with zero. -/
theorem stage_v5 :
    ReadP.val_main_v5 (F := Ideal) x0 x1 x2 x3
      = layer x1 (ReadP.val_main_v0 (F := Ideal) x0 x2) (fun k => x3 (ix1 k)) := by
  funext i
  obtain ⟨r, c, rfl⟩ : ∃ (r : Fin 10000) (c : Fin 128), i = ix2 r c := ⟨i 0, i 1, eq_ix2 i⟩
  rw [ReadP.val_main_v5_apply, ReadP.val_main_v4_apply, ReadP.val_main_v1_apply, ReadP.val_main_v3_apply,
    ReadP.val_main_v2_apply, ReadP.val_main_call0_v0_apply, ReadP.val_main_call0_cst_apply]
  generalize ReadP.val_main_v0 (F := Ideal) x0 x2 = V
  rw [layer_apply]
  refine congrArg₂ max (congrArg₂ (· + ·) (Finset.sum_congr rfl fun k _ => ?_) (congrArg x3 ?_)) rfl
  · rw [idx2_ext (ReadP.lidx_main_v1 (ix2 r c) k) (ix2 r k) rfl rfl,
      idx2_ext (ReadP.ridx_main_v1 (ix2 r c) k) (ix2 k c) rfl rfl]
  · exact idx1_ext _ _ rfl

/-- The second product: the first layer's features against the second layer's weights. -/
theorem stage_v6 :
    ReadP.val_main_v6 (F := Ideal) x0 x1 x2 x3 x4 = support (ReadP.val_main_v5 (F := Ideal) x0 x1 x2 x3) x4 := by
  funext i
  obtain ⟨r, c, rfl⟩ : ∃ (r : Fin 10000) (c : Fin 128), i = ix2 r c := ⟨i 0, i 1, eq_ix2 i⟩
  rw [ReadP.val_main_v6_apply]
  generalize ReadP.val_main_v5 (F := Ideal) x0 x1 x2 x3 = V
  rw [support_apply]
  refine Finset.sum_congr rfl fun k _ => ?_
  rw [idx2_ext (ReadP.lidx_main_v6 (ix2 r c) k) (ix2 r k) rfl rfl,
    idx2_ext (ReadP.ridx_main_v6 (ix2 r c) k) (ix2 k c) rfl rfl]

/-- The second layer. -/
theorem stage_v11 :
    ReadP.val_main_v11 (F := Ideal) x0 x1 x2 x3 x4 x5
      = layer x1 (ReadP.val_main_v6 (F := Ideal) x0 x1 x2 x3 x4) (fun k => x5 (ix1 k)) := by
  funext i
  obtain ⟨r, c, rfl⟩ : ∃ (r : Fin 10000) (c : Fin 128), i = ix2 r c := ⟨i 0, i 1, eq_ix2 i⟩
  rw [ReadP.val_main_v11_apply, ReadP.val_main_v10_apply, ReadP.val_main_v7_apply, ReadP.val_main_v9_apply,
    ReadP.val_main_v8_apply, ReadP.val_main_call1_v0_apply, ReadP.val_main_call1_cst_apply]
  generalize ReadP.val_main_v6 (F := Ideal) x0 x1 x2 x3 x4 = V
  rw [layer_apply]
  refine congrArg₂ max (congrArg₂ (· + ·) (Finset.sum_congr rfl fun k _ => ?_) (congrArg x5 ?_)) rfl
  · rw [idx2_ext (ReadP.lidx_main_v7 (ix2 r c) k) (ix2 r k) rfl rfl,
      idx2_ext (ReadP.ridx_main_v7 (ix2 r c) k) (ix2 k c) rfl rfl]
  · exact idx1_ext _ _ rfl

/-! ## The concatenation and the logits -/

/-- Two [10000, 128] arrays side by side are the specification's `cat`: columns below 128 from the first, the others
    from the second, 128 less. -/
theorem concatenate_eq_cat (X1 X2 : (⟨S10000x128, .f32⟩ : BufTy).Contents (Elt Ideal))
    (h : Shape.Concatenates [S10000x128, S10000x128] S10000x256 1) :
    concatenate S10000x256 1 [⟨S10000x128, X1⟩, ⟨S10000x128, X2⟩] h = cat X1 X2 := by
  funext i
  obtain ⟨r, q, rfl⟩ : ∃ (r : Fin 10000) (q : Fin 256), i = ix2 r q := ⟨i 0, i 1, eq_ix2 i⟩
  by_cases hq : q.val < 128
  · exact (Cert.LibHostRows.concatenate_cols_apply_left X1 X2 h r q ⟨q.val, hq⟩ rfl).trans
      (cat_left X1 X2 r ⟨q.val, hq⟩).symm
  · obtain ⟨l, rfl⟩ : ∃ l : Fin 128, q = ⟨128 + l.val, Nat.add_lt_add_left l.isLt 128⟩ :=
      ⟨⟨q.val - 128, by omega⟩, Fin.ext (by show q.val = 128 + (q.val - 128); omega)⟩
    exact (Cert.LibHostRows.concatenate_cols_apply_right X1 X2 h r _ l
      (by show l.val + 128 = 128 + l.val; omega)).trans (cat_right X1 X2 r l).symm

/-- The concatenation of the two layers' features. -/
theorem stage_v12 :
    ReadP.val_main_v12 (F := Ideal) x0 x1 x2 x3 x4 x5
      = cat (ReadP.val_main_v5 (F := Ideal) x0 x1 x2 x3) (ReadP.val_main_v11 (F := Ideal) x0 x1 x2 x3 x4 x5) := by
  unfold ReadP.val_main_v12
  generalize ReadP.val_main_v5 (F := Ideal) x0 x1 x2 x3 = X1
  generalize ReadP.val_main_v11 (F := Ideal) x0 x1 x2 x3 x4 x5 = X2
  exact concatenate_eq_cat X1 X2 _

/-- The logits: the concatenated features against the output weights, plus the bias. -/
theorem stage_v16 :
    ReadP.val_main_v16 (F := Ideal) x0 x1 x2 x3 x4 x5 x6 x7
      = logitsCat (ReadP.val_main_v5 (F := Ideal) x0 x1 x2 x3) (ReadP.val_main_v11 (F := Ideal) x0 x1 x2 x3 x4 x5) x6
          (fun c => x7 (ix1 c)) := by
  funext i
  obtain ⟨r, c, rfl⟩ : ∃ (r : Fin 10000) (c : Fin 64), i = ix2 r c := ⟨i 0, i 1, eq_ix2 i⟩
  rw [ReadP.val_main_v16_apply, ReadP.val_main_v13_apply, ReadP.val_main_v15_apply, ReadP.val_main_v14_apply,
    stage_v12]
  generalize ReadP.val_main_v5 (F := Ideal) x0 x1 x2 x3 = X1
  generalize ReadP.val_main_v11 (F := Ideal) x0 x1 x2 x3 x4 x5 = X2
  rw [logitsCat_apply]
  refine congrArg₂ (· + ·) (Finset.sum_congr rfl fun k _ => ?_) (congrArg x7 ?_)
  · rw [idx2_ext (ReadP.lidx_main_v13 (ix2 r c) k) (ix2 r k) rfl rfl,
      idx2_ext (ReadP.ridx_main_v13 (ix2 r c) k) (ix2 k c) rfl rfl]
  · exact idx1_ext _ _ rfl

end Cert.ReferenceIdeal.RefValue

end
-- ==== Proof.Reference.lean ====
/-
  The reference program's last stage is the network of the specification.

  The log-softmax tail reads, row by row: the maximum of the row folded from the word of −∞ — the program takes the
  maximum with that word once more, which changes nothing since a fold of max is at least its start —; the row minus
  its maximum; the exponentials of those differences summed from the zero word, whose value is 0; the logarithm of
  the sum, subtracted.  With the earlier stages (the two layers, their concatenation, the logits) this is `network`.
-/
import proofs.«147911_g58265526337850_cont_9to1c4b_403_3_alg».proof.Proof.ReferenceStages

noncomputable section

namespace Cert.ReferenceIdeal.RefValue

open Idealize.ShloMosaic Idealize.ShloMosaic.ValueIdx Cert.ReferenceIdeal Cert.GcnSpec

/-! ## The log-softmax tail -/

section Tail

variable (x0 : (⟨S10000x128, .f32⟩ : BufTy).Contents (Elt Ideal))
  (x1 : (⟨S10000x10000, .f32⟩ : BufTy).Contents (Elt Ideal))
  (x2 : (⟨S128x128, .f32⟩ : BufTy).Contents (Elt Ideal))
  (x3 : (⟨S128, .f32⟩ : BufTy).Contents (Elt Ideal))
  (x4 : (⟨S128x128, .f32⟩ : BufTy).Contents (Elt Ideal))
  (x5 : (⟨S128, .f32⟩ : BufTy).Contents (Elt Ideal))
  (x6 : (⟨S256x64, .f32⟩ : BufTy).Contents (Elt Ideal))
  (x7 : (⟨S64, .f32⟩ : BufTy).Contents (Elt Ideal))

/-- The row maximum the program subtracts: the host's maximum along the last axis from the word of −∞, and the
    maximum with that word again, is the fold of max over the row from that word. -/
theorem rowMax_read (r : Fin 10000) :
    ReadP.val_main_call2_v2 (F := Ideal) x0 x1 x2 x3 x4 x5 x6 x7 (ix1 r)
      = rowMax (ReadP.val_main_v16 (F := Ideal) x0 x1 x2 x3 x4 x5 x6 x7) r := by
  rw [ReadP.val_main_call2_v2_apply, ReadP.val_main_call2_v1_apply, ReadP.val_main_call2_cst_0_apply]
  unfold ReadP.val_main_call2_v0
  generalize ReadP.val_main_v16 (F := Ideal) x0 x1 x2 x3 x4 x5 x6 x7 = L
  rw [Cert.LibHostRows.reduce_max_last_apply L _ _ (by decide) _ r]
  exact Cert.LibHostRows.max_fold_max_self (Finset.univ : Finset (Fin 64)) negInfW (fun k => L (ix2 r k))

/-- The row minus its maximum. -/
theorem shifted_read (r : Fin 10000) (k : Fin 64) :
    ReadP.val_main_call2_v5 (F := Ideal) x0 x1 x2 x3 x4 x5 x6 x7 (ix2 r k)
      = ReadP.val_main_v16 (F := Ideal) x0 x1 x2 x3 x4 x5 x6 x7 (ix2 r k)
        - rowMax (ReadP.val_main_v16 (F := Ideal) x0 x1 x2 x3 x4 x5 x6 x7) r := by
  rw [ReadP.val_main_call2_v5_apply, ReadP.val_main_call2_v4_apply, ReadP.val_main_call2_v3_apply,
    idx1_ext (ReadP.idx_main_call2_v3 (ReadP.idx_main_call2_v4 (ix2 r k))) (ix1 r) rfl, rowMax_read]
  rfl

/-- The tail of the program is the row-wise log-softmax of the logits. -/
theorem stage_v17 :
    ReadP.val_main_v17 (F := Ideal) x0 x1 x2 x3 x4 x5 x6 x7
      = logSoftmax (ReadP.val_main_v16 (F := Ideal) x0 x1 x2 x3 x4 x5 x6 x7) := by
  funext i
  obtain ⟨r, c, rfl⟩ : ∃ (r : Fin 10000) (c : Fin 64), i = ix2 r c := ⟨i 0, i 1, eq_ix2 i⟩
  have hexp : ∀ k : Fin 64,
      ReadP.val_main_call2_v6 (F := Ideal) x0 x1 x2 x3 x4 x5 x6 x7 (ReadP.idx_main_call2_v7 (ix1 r) k)
        = Ideal.exp (ReadP.val_main_v16 (F := Ideal) x0 x1 x2 x3 x4 x5 x6 x7 (ix2 r k)
            - rowMax (ReadP.val_main_v16 (F := Ideal) x0 x1 x2 x3 x4 x5 x6 x7) r) := fun k => by
    rw [idx2_ext (ReadP.idx_main_call2_v7 (ix1 r) k) (ix2 r k) rfl rfl, ReadP.val_main_call2_v6_apply, shifted_read]
    rfl
  rw [ReadP.val_main_v17_apply, shifted_read, ReadP.val_main_call2_v10_apply, ReadP.val_main_call2_v9_apply,
    ReadP.val_main_call2_v8_apply,
    idx1_ext (ReadP.idx_main_call2_v8 (ReadP.idx_main_call2_v10 (ix2 r c))) (ix1 r) rfl,
    ReadP.val_main_call2_v7_apply, ReadP.val_main_call2_cst_1_apply, Finset.sum_congr rfl fun k _ => hexp k]
  generalize ReadP.val_main_v16 (F := Ideal) x0 x1 x2 x3 x4 x5 x6 x7 = L
  rw [logSoftmax_apply]
  simp only [Ideal.subf_def, Ideal.hostUnary_log_def, Ideal.ofBits_def, Ideal.ofBits_zero_f32, zero_add]

end Tail

/-! ## The whole program -/

/-- The reference program computes the network. -/
theorem ref_eq (x0 : (⟨S10000x128, .f32⟩ : BufTy).Contents (Elt Ideal)) (x1 : (⟨S10000x10000, .f32⟩ : BufTy).Contents (Elt Ideal)) (x2 : (⟨S128x128, .f32⟩ : BufTy).Contents (Elt Ideal)) (x3 : (⟨S128, .f32⟩ : BufTy).Contents (Elt Ideal)) (x4 : (⟨S128x128, .f32⟩ : BufTy).Contents (Elt Ideal)) (x5 : (⟨S128, .f32⟩ : BufTy).Contents (Elt Ideal)) (x6 : (⟨S256x64, .f32⟩ : BufTy).Contents (Elt Ideal)) (x7 : (⟨S64, .f32⟩ : BufTy).Contents (Elt Ideal)) :
    Cert.ReferenceIdeal.ReadP.val_main_v17 (F := Ideal) x0 x1 x2 x3 x4 x5 x6 x7
      = network x0 x1 x2 (fun k => x3 (ix1 k)) x4 (fun k => x5 (ix1 k)) x6 (fun c => x7 (ix1 c)) := by
  rw [stage_v17, stage_v16, stage_v11, stage_v6, stage_v5, stage_v0]
  rfl

end Cert.ReferenceIdeal.RefValue

end
-- ==== Proof.KernelRun.lean ====
/-
  The idealized kernel's run with its result named.

  The program is four kernel launches among a few host operations.  The buffer contents at each boundary between two of
  these segments are a fold from the launch memory (`W0` … `W6` of the frame module): a host operation writes its result
  buffer, a kernel launch leaves each of its arrays at what its grid points wrote back and every other buffer as it was.
  Every weakly fair execution ends with every unscoped buffer at the last boundary's contents `W6`; read at the result
  buffer this names the result, and read at an argument buffer it walks back to the launch memory.
-/
import proofs.«147911_g58265526337850_cont_9to1c4b_403_3_alg».proof.Proof.Gen.KernelIdeal.Frame

set_option maxRecDepth 16384

noncomputable section

namespace Cert.KernelIdeal.ValueRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates, nothing faulting, with the result buffer at the last boundary's contents
    and every argument as launched. -/
theorem run : θ_run defs (onTc (τ := τ) (main (F := F))) ⟨m, fun _ => 0, ρ⟩ (fun r => ∀ c : Dev nD,
      r.2.mem ((c.tc : Thread nD τ).loc main_v8) = W6 m ρ c (Proc.devRef .tc main_v8)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨h c _ (mem_uc main_v8 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c),
       (h c _ (mem_uc main_arg6 (by decide))).trans (W6_main_arg6 m ρ c),
       (h c _ (mem_uc main_arg7 (by decide))).trans (W6_main_arg7 m ρ c)⟩)

end Cert.KernelIdeal.ValueRun

end
-- ==== Proof.LibPlainDot.lean ====
/-
  A plain matrix product read at an entry.  For dimension numbers that contract the left operand's second axis with the
  right operand's first (no batch axes), the product of an M × K by a K × N array at entry (r, c) is the sum over
  k < K of left(r, k) · right(k, c) — for the kernel's product into a zero accumulator and for the host's product
  alike.  The contraction index of the dimension numbers is a one-coordinate tuple; the sum is re-indexed by that
  coordinate.
-/
import Idealize.ShloMosaic.PureOps.Ideal.Laws
import Idealize.ShloMosaic.Lib.ValueIdx

noncomputable section

namespace Cert.LibPlainDot

open Idealize.ShloMosaic Idealize.ShloMosaic.ValueIdx

variable {M K N : Nat} {φ₁ φ₂ : FTy}
  (D : DotDims (⟨2, ![M, K]⟩ : Shape) (⟨2, ![K, N]⟩ : Shape) (⟨2, ![M, N]⟩ : Shape))
  (hrank : D.contr.rank = 1) (hsize : D.contr.size ⟨0, by omega⟩ = K)
  (hlc : D.lhsContracting = [1]) (hrc : D.rhsContracting = [0])
  (hL0 : ∀ j k, (D.lhsIdx j k 0).val = (j 0).val) (hR1 : ∀ j k, (D.rhsIdx j k 1).val = (j 1).val)

include hlc hL0 in
/-- The left operand's index at output (r, c) and contraction coordinate k is (r, k). -/
theorem lhsIdx_eq (r : Fin M) (c : Fin N) (k : Fin K) :
    D.lhsIdx (ix2 r c) ((contrEquiv1 D K hrank hsize).symm k) = ix2 r k := by
  funext a; apply Fin.ext
  match a with
  | ⟨0, _⟩ => exact hL0 _ _
  | ⟨1, _⟩ => exact (D.lhsIdx_val_of_single hlc _ _).trans (contrEquiv1_symm_val D K hrank hsize k)

include hrc hR1 in
/-- The right operand's index there is (k, c). -/
theorem rhsIdx_eq (r : Fin M) (c : Fin N) (k : Fin K) :
    D.rhsIdx (ix2 r c) ((contrEquiv1 D K hrank hsize).symm k) = ix2 k c := by
  funext a; apply Fin.ext
  match a with
  | ⟨0, _⟩ => exact (D.rhsIdx_val_of_single hrc _ _).trans (contrEquiv1_symm_val D K hrank hsize k)
  | ⟨1, _⟩ => exact hR1 _ _

include hrank hsize hlc hrc hL0 hR1 in
/-- The sum over the contraction index is the sum over k < K of the two operands at (r, k) and (k, c). -/
theorem sum_contr (lhs : FVec Ideal (⟨2, ![M, K]⟩ : Shape) φ₁) (rhs : FVec Ideal (⟨2, ![K, N]⟩ : Shape) φ₂) (r : Fin M) (c : Fin N) :
    (∑ q : D.contr.Idx, lhs (D.lhsIdx (ix2 r c) q) * rhs (D.rhsIdx (ix2 r c) q)) = ∑ k : Fin K, lhs (ix2 r k) * rhs (ix2 k c) := by
  rw [← Equiv.sum_comp (contrEquiv1 D K hrank hsize).symm]
  refine Finset.sum_congr rfl fun k _ => ?_
  rw [lhsIdx_eq D hrank hsize hlc hL0 r c k, rhsIdx_eq D hrank hsize hrc hR1 r c k]

include hrank hsize hlc hrc hL0 hR1 in
/-- The kernel's product into the zero accumulator, at an entry. -/
theorem matmul_zero_apply (prec : Option ContractPrecision) (lhs : FVec Ideal (⟨2, ![M, K]⟩ : Shape) φ₁)
    (rhs : FVec Ideal (⟨2, ![K, N]⟩ : Shape) φ₂) (r : Fin M) (c : Fin N) :
    FloatOps.matmul D prec lhs rhs (constant (⟨2, ![M, N]⟩ : Shape) .f32 0x00000000#32) (ix2 r c)
      = ∑ k : Fin K, lhs (ix2 r k) * rhs (ix2 k c) :=
  (Ideal.matmul_constant_zero_apply D prec lhs rhs (ix2 r c)).trans (sum_contr D hrank hsize hlc hrc hL0 hR1 lhs rhs r c)

include hrank hsize hlc hrc hL0 hR1 in
/-- The host's product, at an entry, whatever its schedule. -/
theorem dotGeneral_apply (prec : Option ContractPrecision) (sched : HostSchedule) (lhs : FVec Ideal (⟨2, ![M, K]⟩ : Shape) φ₁)
    (rhs : FVec Ideal (⟨2, ![K, N]⟩ : Shape) φ₂) (r : Fin M) (c : Fin N) :
    FloatOps.dotGeneral D prec sched lhs rhs (ix2 r c) = ∑ k : Fin K, lhs (ix2 r k) * rhs (ix2 k c) :=
  (Ideal.dotGeneral_apply D prec sched lhs rhs (ix2 r c)).trans (sum_contr D hrank hsize hlc hrc hL0 hR1 lhs rhs r c)

end Cert.LibPlainDot

end
-- ==== Proof.LibUnitAxes.lean ====
/-
  Unit axes.  A column [a, 1] or a row [1, b] spread over an [a, b] array reads, at (p, c), the column at (p, 0) or
  the row at (0, c) — for the vector broadcast and for the host's broadcast along the listed dimensions alike.  A
  scalar spread over any shape reads the scalar.  Casting an [a] array to [a, 1] or to [1, a] moves no element, so it
  is the host's broadcast of the [a] array along dimension 0 (or 1) of the result.
-/
import Idealize.ShloMosaic.Lib.Pipeline.Value
import Idealize.ShloMosaic.Lib.ValueIdx
import Idealize.ShloMosaic.Lib.ValueLayout

noncomputable section

namespace Cert.LibUnitAxes

open Idealize.ShloMosaic Idealize.ShloMosaic.ValueIdx

variable {α : Type}

/-- A column [a, 1] broadcast (as a vector) to [a, b] reads, at (p, c), the column at (p, 0). -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The host's broadcast of a column [a, 1] along both dimensions of [a, b] reads, at (p, c), the column at (p, 0). -/
theorem broadcastInDim_a1_ab_apply {a b : ℕ} (v : (⟨2, ![a, 1]⟩ : Shape).Idx → α)
    (h : (⟨2, ![a, 1]⟩ : Shape).BroadcastsInDim ⟨2, ![a, b]⟩ ![0, 1]) (p : Fin a) (c : Fin b) :
    broadcastInDim ⟨2, ![a, b]⟩ ![0, 1] h v (ix2 p c) = v (ix2 p (0 : Fin 1)) := by
  refine broadcastInDim_apply ![0, 1] h v (ix2 p c) (ix2 p (0 : Fin 1)) fun ax => ?_
  match ax with
  | ⟨0, _⟩ =>
    show p.val = if a = 1 then 0 else p.val
    split
    · have := p.isLt; omega
    · rfl
  | ⟨1, _⟩ => rfl

/-- The host's broadcast of a row [1, b] along both dimensions of [a, b] reads, at (p, c), the row at (0, c). -/
theorem broadcastInDim_1b_ab_apply {a b : ℕ} (v : (⟨2, ![1, b]⟩ : Shape).Idx → α)
    (h : (⟨2, ![1, b]⟩ : Shape).BroadcastsInDim ⟨2, ![a, b]⟩ ![0, 1]) (p : Fin a) (c : Fin b) :
    broadcastInDim ⟨2, ![a, b]⟩ ![0, 1] h v (ix2 p c) = v (ix2 (0 : Fin 1) c) := by
  refine broadcastInDim_apply ![0, 1] h v (ix2 p c) (ix2 (0 : Fin 1) c) fun ax => ?_
  match ax with
  | ⟨0, _⟩ => rfl
  | ⟨1, _⟩ =>
    show c.val = if b = 1 then 0 else c.val
    split
    · have := c.isLt; omega
    · rfl

/-- The host's broadcast of a scalar reads the scalar at every index. -/
theorem broadcastInDim_scalar_apply {t : Shape} (v : (⟨0, ![]⟩ : Shape).Idx → α)
    (h : (⟨0, ![]⟩ : Shape).BroadcastsInDim t ![]) (j : t.Idx) :
    broadcastInDim t ![] h v j = v ix0 :=
  broadcastInDim_apply ![] h v j ix0 fun ax => ax.elim0

/-- Casting [a] to [a, 1] is the host's broadcast of the array along dimension 0. -/
theorem shapeCast_a_a1_eq_broadcastInDim {a : ℕ} (x : (⟨1, ![a]⟩ : Shape).Idx → α)
    (h : (⟨1, ![a]⟩ : Shape).ShapeCasts ⟨2, ![a, 1]⟩) (hb : (⟨1, ![a]⟩ : Shape).BroadcastsInDim ⟨2, ![a, 1]⟩ ![0]) :
    shapeCast ⟨2, ![a, 1]⟩ x h = broadcastInDim ⟨2, ![a, 1]⟩ ![0] hb x := by
  funext j
  obtain ⟨p, u, rfl⟩ : ∃ (p : Fin a) (u : Fin 1), j = ix2 p u := ⟨j 0, j 1, eq_ix2 j⟩
  have hu : u.val = 0 := by omega
  rw [shapeCast_apply x h (ix2 p u) (ix1 p) (by
        rw [Shape.rowMajor_val_two, Shape.rowMajor_val_one]
        show p.val = p.val * 1 + u.val
        omega),
      broadcastInDim_apply ![0] hb x (ix2 p u) (ix1 p) (fun ax => match ax with
        | ⟨0, _⟩ => by
          show p.val = if a = 1 then 0 else p.val
          split
          · have := p.isLt; omega
          · rfl)]

/-- Casting [a] to [1, a] is the host's broadcast of the array along dimension 1. -/
theorem shapeCast_a_1a_eq_broadcastInDim {a : ℕ} (x : (⟨1, ![a]⟩ : Shape).Idx → α)
    (h : (⟨1, ![a]⟩ : Shape).ShapeCasts ⟨2, ![1, a]⟩) (hb : (⟨1, ![a]⟩ : Shape).BroadcastsInDim ⟨2, ![1, a]⟩ ![1]) :
    shapeCast ⟨2, ![1, a]⟩ x h = broadcastInDim ⟨2, ![1, a]⟩ ![1] hb x := by
  funext j
  obtain ⟨u, p, rfl⟩ : ∃ (u : Fin 1) (p : Fin a), j = ix2 u p := ⟨j 0, j 1, eq_ix2 j⟩
  rw [shapeCast_a_1a_apply x h u p,
      broadcastInDim_apply ![1] hb x (ix2 u p) (ix1 p) (fun ax => match ax with
        | ⟨0, _⟩ => by
          show p.val = if a = 1 then 0 else p.val
          split
          · have := p.isLt; omega
          · rfl)]

end Cert.LibUnitAxes

end
-- ==== Proof.LibRowMax.lean ====
/-
  Maxima along one axis, read at coordinates.

  On the extended reals a maximum of an [a, b] array along its last axis, started from a word's value, is at p the fold
  of max over k < b of the array at (p, k), started from that value.
-/
import Idealize.ShloMosaic.PureOps.Ideal.Laws
import Idealize.ShloMosaic.Lib.ValueIdx
import proofs.«147911_g58265526337850_cont_9to1c4b_403_3_alg».proof.Proof.LibLaneSums

noncomputable section

namespace Cert.LibRowMax

open Idealize.ShloMosaic Idealize.ShloMosaic.ValueIdx

/-- A maximum of an [a, b] array along its last axis, from the neutral element, at p: the fold of max over k of the
    array at (p, k), started from the value of the neutral element's word. -/
theorem max_last_apply {a b : ℕ} {φ : FTy} (src : FVec Ideal (⟨2, ![a, b]⟩ : Shape) φ) (acc : BitVec φ.bits)
    (h : (⟨2, ![a, b]⟩ : Shape).Reduces [1] ⟨1, ![a]⟩) (hφ : FKind.Formats φ) (hacc : acc = FKind.maximumf.neutral φ hφ)
    (p : Fin a) :
    multiReduction .maximumf [1] (⟨1, ![a]⟩ : Shape) src acc h hφ hacc (ix1 p)
      = (Finset.univ : Finset (Fin b)).fold max (FloatOps.ofBits φ acc) (fun k => src (ix2 p k)) :=
  (Ideal.multiReduction_maximumf_single src acc h hφ hacc (ix1 p)).trans
    (congrArg (fun f : Fin b → Ideal φ => (Finset.univ : Finset (Fin b)).fold max (FloatOps.ofBits φ acc) f)
      (funext fun k => congrArg src (Cert.LibLaneSums.lift_last h p k)))

end Cert.LibRowMax

end
-- ==== Proof.Payloads.lean ====
/-
  Each kernel body's value is a stage of the network.

  On the extended reals, where a change of format is the identity: the two support kernels form x · w; the first
  layer's kernel forms relu(adj · s + b) on a block of 400 rows of the adjacency matrix; the second layer's kernel
  forms the same block of the second layer, the class logits from the two layers' blocks against the two halves of
  the weights, and the row-wise log-softmax of those logits.  A product into the zero accumulator is read entry by
  entry as a finite sum, a row [1, b] or a column [a, 1] spread over [a, b] as that row or column, and a maximum or a
  sum along the last axis as the fold of max or the sum over that row.
-/
import proofs.«147911_g58265526337850_cont_9to1c4b_403_3_alg».proof.Proof.Gen.KernelIdeal.Skeleton
import proofs.«147911_g58265526337850_cont_9to1c4b_403_3_alg».proof.Proof.Spec
import proofs.«147911_g58265526337850_cont_9to1c4b_403_3_alg».proof.Proof.LibPlainDot
import proofs.«147911_g58265526337850_cont_9to1c4b_403_3_alg».proof.Proof.LibUnitAxes
import proofs.«147911_g58265526337850_cont_9to1c4b_403_3_alg».proof.Proof.LibLaneSums
import proofs.«147911_g58265526337850_cont_9to1c4b_403_3_alg».proof.Proof.LibRowMax
import Idealize.ShloMosaic.Lib.ValueLayout
import Idealize.ShloMosaic.Lib.Pipeline.Value
import Idealize.ShloMosaic.PureOps.Ideal.Laws

noncomputable section
namespace Cert.KernelIdeal.Payloads
open Idealize.ShloMosaic Idealize.ShloMosaic.ValueIdx Cert.KernelIdeal Cert.KernelIdeal.Gen Cert.GcnSpec

/-! ## The three products, read at an entry -/

/-- In the 10000×128 by 128×128 product the left operand's row is the output's row, -/
theorem dotA_L0 (j : S10000x128.Idx) (q : dot_S10000x128_S128x128_S10000x128_1_0_0_1_n_n.contr.Idx) :
    (dot_S10000x128_S128x128_S10000x128_1_0_0_1_n_n.lhsIdx j q 0).val = (j 0).val := by
  unfold DotDims.lhsIdx
  rw [dif_neg (show ¬(0 : Fin S10000x128.rank) ∈ dot_S10000x128_S128x128_S10000x128_1_0_0_1_n_n.lhsBatch by decide), dif_pos (show (0 : Fin S10000x128.rank) ∈ dot_S10000x128_S128x128_S10000x128_1_0_0_1_n_n.lhsNonContracting by decide)]
  rfl

/-- and the right operand's column is the output's column. -/
theorem dotA_R1 (j : S10000x128.Idx) (q : dot_S10000x128_S128x128_S10000x128_1_0_0_1_n_n.contr.Idx) :
    (dot_S10000x128_S128x128_S10000x128_1_0_0_1_n_n.rhsIdx j q 1).val = (j 1).val := by
  unfold DotDims.rhsIdx
  rw [dif_neg (show ¬(1 : Fin S128x128.rank) ∈ dot_S10000x128_S128x128_S10000x128_1_0_0_1_n_n.rhsBatch by decide), dif_pos (show (1 : Fin S128x128.rank) ∈ dot_S10000x128_S128x128_S10000x128_1_0_0_1_n_n.rhsNonContracting by decide)]
  rfl

/-- The 10000×128 by 128×128 product into the zero accumulator, at (r, c): ∑ k, x(r, k) · w(k, c). -/
theorem dotA_apply (prec : Option ContractPrecision) (x : FVec Ideal S10000x128 .f32) (w : FVec Ideal S128x128 .f32)
    (r : Fin 10000) (c : Fin 128) :
    matmul dot_S10000x128_S128x128_S10000x128_1_0_0_1_n_n prec x w (constant S10000x128 .f32 0x00000000#32) (ix2 r c)
      = ∑ k : Fin 128, x (ix2 r k) * w (ix2 k c) :=
  Cert.LibPlainDot.matmul_zero_apply dot_S10000x128_S128x128_S10000x128_1_0_0_1_n_n rfl rfl rfl rfl dotA_L0 dotA_R1 prec x w r c

/-- In the 400×10000 by 10000×128 product the left operand's row is the output's row, -/
theorem dotB_L0 (j : S400x128.Idx) (q : dot_S400x10000_S10000x128_S400x128_1_0_0_1_n_n.contr.Idx) :
    (dot_S400x10000_S10000x128_S400x128_1_0_0_1_n_n.lhsIdx j q 0).val = (j 0).val := by
  unfold DotDims.lhsIdx
  rw [dif_neg (show ¬(0 : Fin S400x10000.rank) ∈ dot_S400x10000_S10000x128_S400x128_1_0_0_1_n_n.lhsBatch by decide), dif_pos (show (0 : Fin S400x10000.rank) ∈ dot_S400x10000_S10000x128_S400x128_1_0_0_1_n_n.lhsNonContracting by decide)]
  rfl

/-- and the right operand's column is the output's column. -/
theorem dotB_R1 (j : S400x128.Idx) (q : dot_S400x10000_S10000x128_S400x128_1_0_0_1_n_n.contr.Idx) :
    (dot_S400x10000_S10000x128_S400x128_1_0_0_1_n_n.rhsIdx j q 1).val = (j 1).val := by
  unfold DotDims.rhsIdx
  rw [dif_neg (show ¬(1 : Fin S10000x128.rank) ∈ dot_S400x10000_S10000x128_S400x128_1_0_0_1_n_n.rhsBatch by decide), dif_pos (show (1 : Fin S10000x128.rank) ∈ dot_S400x10000_S10000x128_S400x128_1_0_0_1_n_n.rhsNonContracting by decide)]
  rfl

/-- The 400×10000 by 10000×128 product into the zero accumulator, at (p, q): ∑ k, a(p, k) · s(k, q). -/
theorem dotB_apply (prec : Option ContractPrecision) (a : FVec Ideal S400x10000 .bf16) (s : FVec Ideal S10000x128 .bf16)
    (p : Fin 400) (q : Fin 128) :
    matmul dot_S400x10000_S10000x128_S400x128_1_0_0_1_n_n prec a s (constant S400x128 .f32 0x00000000#32) (ix2 p q)
      = ∑ k : Fin 10000, a (ix2 p k) * s (ix2 k q) :=
  Cert.LibPlainDot.matmul_zero_apply dot_S400x10000_S10000x128_S400x128_1_0_0_1_n_n rfl rfl rfl rfl dotB_L0 dotB_R1 prec a s p q

/-! ## The two support kernels -/

/-- The first support kernel's body is x · w. -/
theorem pay0_eq (x : FVec Ideal S10000x128 .f32) (w : FVec Ideal S128x128 .f32) :
    k0_pay1 (F := Ideal) x w = support x w := by
  funext i
  obtain ⟨r, c, rfl⟩ : ∃ (r : Fin 10000) (c : Fin 128), i = ix2 r c := ⟨i 0, i 1, eq_ix2 i⟩
  unfold k0_pay1
  exact dotA_apply (some .fp32) x w r c

/-- The second support kernel's body is x · w. -/
theorem pay2_eq (x : FVec Ideal S10000x128 .f32) (w : FVec Ideal S128x128 .f32) :
    k2_pay1 (F := Ideal) x w = support x w := by
  funext i
  obtain ⟨r, c, rfl⟩ : ∃ (r : Fin 10000) (c : Fin 128), i = ix2 r c := ⟨i 0, i 1, eq_ix2 i⟩
  unfold k2_pay1
  refine (congrArg (fun v : FVec Ideal S10000x128 .f32 =>
      matmul dot_S10000x128_S128x128_S10000x128_1_0_0_1_n_n (some .fp32) v w (constant S10000x128 .f32 0x00000000#32) (ix2 r c))
    (shapeCast_self x shapeCasts_S10000x128_S10000x128)).trans ?_
  exact dotA_apply (some .fp32) x w r c

/-! ## A graph-convolution layer on a block of rows -/

/-- relu(a · s + row bias) at (p, q): the product into the zero accumulator, plus the bias row spread over the rows,
    against the zero spread over the block. -/
theorem reluBias_apply (a : FVec Ideal S400x10000 .bf16) (s : FVec Ideal S10000x128 .bf16) (br : FVec Ideal S1x128 .f32)
    (p : Fin 400) (q : Fin 128) :
    maximumf
        (addf (matmul dot_S400x10000_S10000x128_S400x128_1_0_0_1_n_n none a s (constant S400x128 .f32 0x00000000#32))
          (broadcastTo S400x128 br broadcasts_S1x128_S400x128))
        (broadcast S400x128 (Scalar.ofBits (F := Ideal) .f32 0x00000000#32)) (ix2 p q)
      = max ((∑ k : Fin 10000, a (ix2 p k) * s (ix2 k q)) + br (ix2 (0 : Fin 1) q)) zeroW := by
  show max (matmul dot_S400x10000_S10000x128_S400x128_1_0_0_1_n_n none a s (constant S400x128 .f32 0x00000000#32) (ix2 p q)
        + broadcastTo S400x128 br broadcasts_S1x128_S400x128 (ix2 p q)) zeroW = _
  rw [dotB_apply none a s p q, broadcastTo_1b_ab_apply br broadcasts_S1x128_S400x128 p q]

/-- The first layer's kernel body: a same-shape cast moves nothing, so it is relu(a · s + row bias) of the operands. -/
theorem k1_body (adjb : FVec Ideal S400x10000 .f32) (s : FVec Ideal S10000x128 .bf16) (br : FVec Ideal S1x128 .f32) :
    k1_pay1 (F := Ideal) adjb s br
      = maximumf
        (addf (matmul dot_S400x10000_S10000x128_S400x128_1_0_0_1_n_n none (truncf .bf16 adjb bitsLt_bf16_f32) s (constant S400x128 .f32 0x00000000#32))
          (broadcastTo S400x128 br broadcasts_S1x128_S400x128))
        (broadcast S400x128 (Scalar.ofBits (F := Ideal) .f32 0x00000000#32)) := by
  unfold k1_pay1
  rw [shapeCast_self s, shapeCast_self br]

/-- The first layer's kernel body is the layer of the specification on the block of rows. -/
theorem pay1_eq (adjb : FVec Ideal S400x10000 .f32) (s : FVec Ideal S10000x128 .bf16) (br : FVec Ideal S1x128 .f32) :
    k1_pay1 (F := Ideal) adjb s br = layer adjb s (fun k => br (ix2 (0 : Fin 1) k)) := by
  funext i
  obtain ⟨p, q, rfl⟩ : ∃ (p : Fin 400) (q : Fin 128), i = ix2 p q := ⟨i 0, i 1, eq_ix2 i⟩
  rw [k1_body]
  exact reluBias_apply (truncf .bf16 adjb bitsLt_bf16_f32) s br p q

/-! ## The class logits of a block of rows -/

/-- In the 400×128 by 128×64 product the left operand's row is the output's row, -/
theorem dotC_L0 (j : S400x64.Idx) (q : dot_S400x128_S128x64_S400x64_1_0_0_1_n_n.contr.Idx) :
    (dot_S400x128_S128x64_S400x64_1_0_0_1_n_n.lhsIdx j q 0).val = (j 0).val := by
  unfold DotDims.lhsIdx
  rw [dif_neg (show ¬(0 : Fin S400x128.rank) ∈ dot_S400x128_S128x64_S400x64_1_0_0_1_n_n.lhsBatch by decide), dif_pos (show (0 : Fin S400x128.rank) ∈ dot_S400x128_S128x64_S400x64_1_0_0_1_n_n.lhsNonContracting by decide)]
  rfl

/-- and the right operand's column is the output's column. -/
theorem dotC_R1 (j : S400x64.Idx) (q : dot_S400x128_S128x64_S400x64_1_0_0_1_n_n.contr.Idx) :
    (dot_S400x128_S128x64_S400x64_1_0_0_1_n_n.rhsIdx j q 1).val = (j 1).val := by
  unfold DotDims.rhsIdx
  rw [dif_neg (show ¬(1 : Fin S128x64.rank) ∈ dot_S400x128_S128x64_S400x64_1_0_0_1_n_n.rhsBatch by decide), dif_pos (show (1 : Fin S128x64.rank) ∈ dot_S400x128_S128x64_S400x64_1_0_0_1_n_n.rhsNonContracting by decide)]
  rfl

/-- The 400×128 by 128×64 product into the zero accumulator, at (p, q): ∑ l, x(p, l) · w(l, q). -/
theorem dotC_apply (prec : Option ContractPrecision) (x : FVec Ideal S400x128 .f32) (w : FVec Ideal S128x64 .f32)
    (p : Fin 400) (q : Fin 64) :
    matmul dot_S400x128_S128x64_S400x64_1_0_0_1_n_n prec x w (constant S400x64 .f32 0x00000000#32) (ix2 p q)
      = ∑ l : Fin 128, x (ix2 p l) * w (ix2 l q) :=
  Cert.LibPlainDot.matmul_zero_apply dot_S400x128_S128x64_S400x64_1_0_0_1_n_n rfl rfl rfl rfl dotC_L0 dotC_R1 prec x w p q

/-- relu(a · s + row bias) as an array, for any operands. -/
def reluArr (a : FVec Ideal S400x10000 .bf16) (s : FVec Ideal S10000x128 .bf16) (br : FVec Ideal S1x128 .f32) :
    FVec Ideal S400x128 .f32 :=
  maximumf
    (addf (matmul dot_S400x10000_S10000x128_S400x128_1_0_0_1_n_n none a s (constant S400x128 .f32 0x00000000#32))
      (broadcastTo S400x128 br broadcasts_S1x128_S400x128))
    (broadcast S400x128 (Scalar.ofBits (F := Ideal) .f32 0x00000000#32))

/-- It is the layer of the specification. -/
theorem reluArr_eq (a : FVec Ideal S400x10000 .bf16) (s : FVec Ideal S10000x128 .bf16) (br : FVec Ideal S1x128 .f32) :
    reluArr a s br = layer a s (fun k => br (ix2 (0 : Fin 1) k)) := by
  funext i
  obtain ⟨p, q, rfl⟩ : ∃ (p : Fin 400) (q : Fin 128), i = ix2 p q := ⟨i 0, i 1, eq_ix2 i⟩
  exact reluBias_apply a s br p q

/-- The logits of a block: each feature block against its half of the weights, plus the bias row. -/
def logitsArr (x1 x2 : FVec Ideal S400x128 .f32) (wt wb : FVec Ideal S128x64 .f32) (blr : FVec Ideal S1x64 .f32) :
    FVec Ideal S400x64 .f32 :=
  addf
    (addf (matmul dot_S400x128_S128x64_S400x64_1_0_0_1_n_n (some .fp32) x1 wt (constant S400x64 .f32 0x00000000#32))
      (matmul dot_S400x128_S128x64_S400x64_1_0_0_1_n_n (some .fp32) x2 wb (constant S400x64 .f32 0x00000000#32)))
    (broadcastTo S400x64 blr broadcasts_S1x64_S400x64)

/-- They are the specification's split logits. -/
theorem logitsArr_eq (x1 x2 : FVec Ideal S400x128 .f32) (wt wb : FVec Ideal S128x64 .f32) (blr : FVec Ideal S1x64 .f32) :
    logitsArr x1 x2 wt wb blr = logitsSplit x1 x2 wt wb (fun c => blr (ix2 (0 : Fin 1) c)) := by
  funext i
  obtain ⟨p, q, rfl⟩ : ∃ (p : Fin 400) (q : Fin 64), i = ix2 p q := ⟨i 0, i 1, eq_ix2 i⟩
  show (matmul dot_S400x128_S128x64_S400x64_1_0_0_1_n_n (some .fp32) x1 wt (constant S400x64 .f32 0x00000000#32) (ix2 p q)
        + matmul dot_S400x128_S128x64_S400x64_1_0_0_1_n_n (some .fp32) x2 wb (constant S400x64 .f32 0x00000000#32) (ix2 p q))
      + broadcastTo S400x64 blr broadcasts_S1x64_S400x64 (ix2 p q)
    = ((∑ l : Fin 128, x1 (ix2 p l) * wt (ix2 l q)) + (∑ l : Fin 128, x2 (ix2 p l) * wb (ix2 l q))) + blr (ix2 (0 : Fin 1) q)
  rw [dotC_apply (some .fp32) x1 wt p q, dotC_apply (some .fp32) x2 wb p q, broadcastTo_1b_ab_apply blr broadcasts_S1x64_S400x64 p q]

/-! ## Row-wise log-softmax of a block -/

/-- The row maxima of a block, as a column spread back over the block. -/
def maxSpread (v : FVec Ideal S400x64 .f32) : FVec Ideal S400x64 .f32 :=
  broadcastTo S400x64
    (shapeCast S400x1 (multiReduction .maximumf [1] S400 v 0xFF800000#32 reduces_S400x64_S400 (.inl rfl) rfl) shapeCasts_S400_S400x1)
    broadcasts_S400x1_S400x64

/-- At (p, c) it is the maximum of row p. -/
theorem maxSpread_apply (v : FVec Ideal S400x64 .f32) (p : Fin 400) (c : Fin 64) : maxSpread v (ix2 p c) = rowMax v p :=
  (Cert.LibUnitAxes.broadcastTo_a1_ab_apply _ broadcasts_S400x1_S400x64 p c).trans
    ((Cert.LibLaneSums.shapeCast_a_a1_apply _ shapeCasts_S400_S400x1 p (0 : Fin 1)).trans
      (Cert.LibRowMax.max_last_apply v 0xFF800000#32 reduces_S400x64_S400 (.inl rfl) rfl p))

/-- The logarithm of the row sums of a block, as a column spread over the block. -/
def logSumSpread (e : FVec Ideal S400x64 .f32) : FVec Ideal S400x64 .f32 :=
  broadcastTo S400x64
    (log (shapeCast S400x1 (multiReduction .add [1] S400 e 0x00000000#32 reduces_S400x64_S400 (.inl rfl) rfl) shapeCasts_S400_S400x1))
    broadcasts_S400x1_S400x64

/-- At (p, c) it is the logarithm of the sum of row p. -/
theorem logSumSpread_apply (e : FVec Ideal S400x64 .f32) (p : Fin 400) (c : Fin 64) :
    logSumSpread e (ix2 p c) = Ideal.log (∑ k : Fin 64, e (ix2 p k)) :=
  (Cert.LibUnitAxes.broadcastTo_a1_ab_apply _ broadcasts_S400x1_S400x64 p c).trans
    (congrArg Ideal.log
      ((Cert.LibLaneSums.shapeCast_a_a1_apply _ shapeCasts_S400_S400x1 p (0 : Fin 1)).trans
        (Cert.LibLaneSums.sum_last_apply e 0x00000000#32 reduces_S400x64_S400 (.inl rfl) rfl p)))

/-- The block minus its row maxima, minus the logarithm of the row sums of the exponentials of those differences. -/
def tailArr (v : FVec Ideal S400x64 .f32) : FVec Ideal S400x64 .f32 :=
  subf (subf v (maxSpread v)) (logSumSpread (exp (subf v (maxSpread v))))

/-- It is the row-wise log-softmax. -/
theorem tailArr_eq (v : FVec Ideal S400x64 .f32) : tailArr v = logSoftmax v := by
  funext i
  obtain ⟨p, q, rfl⟩ : ∃ (p : Fin 400) (q : Fin 64), i = ix2 p q := ⟨i 0, i 1, eq_ix2 i⟩
  show (v (ix2 p q) - maxSpread v (ix2 p q)) - logSumSpread (exp (subf v (maxSpread v))) (ix2 p q)
    = (v (ix2 p q) - rowMax v p) - Ideal.log (∑ c : Fin 64, Ideal.exp (v (ix2 p c) - rowMax v p))
  rw [maxSpread_apply v p q, logSumSpread_apply _ p q]
  refine congrArg (fun t => (v (ix2 p q) - rowMax v p) - Ideal.log t) (Finset.sum_congr rfl fun c _ => ?_)
  show Ideal.exp (v (ix2 p c) - maxSpread v (ix2 p c)) = _
  rw [maxSpread_apply v p c]

/-! ## The two layer kernels -/

/-- The second layer's kernel body is the three stages composed. -/
theorem k3_body (adjb : FVec Ideal S400x10000 .f32) (s : FVec Ideal S10000x128 .bf16) (br : FVec Ideal S1x128 .f32)
    (x1b : FVec Ideal S400x128 .f32) (wt wb : FVec Ideal S128x64 .f32) (blr : FVec Ideal S1x64 .f32) :
    k3_pay1 (F := Ideal) adjb s br x1b wt wb blr
      = tailArr (logitsArr x1b (reluArr (truncf .bf16 adjb bitsLt_bf16_f32) s br) wt wb blr) := by
  unfold k3_pay1
  rw [shapeCast_self s, shapeCast_self br, shapeCast_self x1b, shapeCast_self wt, shapeCast_self wb, shapeCast_self blr]
  rfl

/-- The second layer's kernel body is the log-softmax of the split logits of the first layer's block and the second
    layer's block. -/
theorem pay3_eq (adjb : FVec Ideal S400x10000 .f32) (s : FVec Ideal S10000x128 .bf16) (br : FVec Ideal S1x128 .f32)
    (x1b : FVec Ideal S400x128 .f32) (wt wb : FVec Ideal S128x64 .f32) (blr : FVec Ideal S1x64 .f32) :
    k3_pay1 (F := Ideal) adjb s br x1b wt wb blr
      = logSoftmax (logitsSplit x1b (layer adjb s (fun k => br (ix2 (0 : Fin 1) k))) wt wb (fun c => blr (ix2 (0 : Fin 1) c))) := by
  rw [k3_body, tailArr_eq, logitsArr_eq, reluArr_eq]
  rfl

end Cert.KernelIdeal.Payloads
end
-- ==== Proof.SpecRows.lean ====
/-
  Each stage of the network acts on each row independently of the other rows: row r of the result over one array of
  rows is row R of the result over another as soon as the two arrays agree on those rows (and the shared operands agree).
  This is what lets a block of 400 rows stand for the same rows of the whole array.
-/
import proofs.«147911_g58265526337850_cont_9to1c4b_403_3_alg».proof.Proof.Spec

noncomputable section

namespace Cert.GcnSpec

open Idealize.ShloMosaic Idealize.ShloMosaic.ValueIdx

theorem support_row {n n' : ℕ} (x : Mat n 128) (X : Mat n' 128) (w W : Mat 128 128) (r : Fin n) (R : Fin n') (q : Fin 128)
    (hx : ∀ l, x (ix2 r l) = X (ix2 R l)) (hw : ∀ l, w (ix2 l q) = W (ix2 l q)) :
    support x w (ix2 r q) = support X W (ix2 R q) := by
  show (∑ l : Fin 128, x (ix2 r l) * w (ix2 l q)) = ∑ l : Fin 128, X (ix2 R l) * W (ix2 l q)
  exact Finset.sum_congr rfl fun l _ => by rw [hx l, hw l]

theorem layer_row {n n' : ℕ} (a : Mat n 10000) (A : Mat n' 10000) (s S : Mat 10000 128) (b B : Fin 128 → EReal)
    (r : Fin n) (R : Fin n') (q : Fin 128)
    (ha : ∀ l, a (ix2 r l) = A (ix2 R l)) (hs : ∀ l, s (ix2 l q) = S (ix2 l q)) (hb : b q = B q) :
    layer a s b (ix2 r q) = layer A S B (ix2 R q) := by
  show max ((∑ l : Fin 10000, a (ix2 r l) * s (ix2 l q)) + b q) zeroW
    = max ((∑ l : Fin 10000, A (ix2 R l) * S (ix2 l q)) + B q) zeroW
  rw [hb]
  exact congrArg (max · zeroW) (congrArg (· + B q) (Finset.sum_congr rfl fun l _ => by rw [ha l, hs l]))

theorem logitsSplit_row {n n' : ℕ} (x1 x2 : Mat n 128) (X1 X2 : Mat n' 128) (wt wb WT WB : Mat 128 64) (bl BL : Fin 64 → EReal)
    (r : Fin n) (R : Fin n') (q : Fin 64)
    (h1 : ∀ l, x1 (ix2 r l) = X1 (ix2 R l)) (h2 : ∀ l, x2 (ix2 r l) = X2 (ix2 R l))
    (ht : ∀ l, wt (ix2 l q) = WT (ix2 l q)) (hb : ∀ l, wb (ix2 l q) = WB (ix2 l q)) (hl : bl q = BL q) :
    logitsSplit x1 x2 wt wb bl (ix2 r q) = logitsSplit X1 X2 WT WB BL (ix2 R q) := by
  show ((∑ l : Fin 128, x1 (ix2 r l) * wt (ix2 l q)) + (∑ l : Fin 128, x2 (ix2 r l) * wb (ix2 l q))) + bl q
    = ((∑ l : Fin 128, X1 (ix2 R l) * WT (ix2 l q)) + (∑ l : Fin 128, X2 (ix2 R l) * WB (ix2 l q))) + BL q
  rw [hl]
  exact congrArg (· + BL q) (congrArg₂ (· + ·) (Finset.sum_congr rfl fun l _ => by rw [h1 l, ht l])
    (Finset.sum_congr rfl fun l _ => by rw [h2 l, hb l]))

theorem logSoftmax_row {n n' : ℕ} (L : Mat n 64) (L' : Mat n' 64) (r : Fin n) (R : Fin n') (q : Fin 64)
    (h : ∀ c, L (ix2 r c) = L' (ix2 R c)) : logSoftmax L (ix2 r q) = logSoftmax L' (ix2 R q) := by
  have hm : rowMax L r = rowMax L' R := by
    unfold rowMax
    exact congrArg (Finset.fold max negInfW · Finset.univ) (funext fun c => h c)
  show (L (ix2 r q) - rowMax L r) - Ideal.log (∑ c : Fin 64, Ideal.exp (L (ix2 r c) - rowMax L r))
    = (L' (ix2 R q) - rowMax L' R) - Ideal.log (∑ c : Fin 64, Ideal.exp (L' (ix2 R c) - rowMax L' R))
  rw [hm, h q]
  exact congrArg (fun z => (L' (ix2 R q) - rowMax L' R) - Ideal.log z) (Finset.sum_congr rfl fun c _ => by rw [h c])

end Cert.GcnSpec

end
-- ==== Proof.Blocks0.lean ====
/-
  The first feature product h · W0, from its one block to the array.

  The launch has one grid point; each window is its whole array, staged whole, and the body stores the product of the
  two arrays it loads.  The one block written back is the whole output array, which therefore ends as x · w of the arrays
  the launch found.
-/
import proofs.«147911_g58265526337850_cont_9to1c4b_403_3_alg».proof.Proof.Gen.KernelIdeal.Frame
import proofs.«147911_g58265526337850_cont_9to1c4b_403_3_alg».proof.Proof.SpecRows
import Idealize.ShloMosaic.Lib.Pipeline.Value

noncomputable section

namespace Cert.KernelIdeal.Blocks0

open Cert.KernelIdeal Cert.KernelIdeal.Gen Idealize.ShloMosaic Idealize.ShloMosaic.TcCoe Idealize.SL.Sem
open Idealize.ShloMosaic.ValueIdx Cert.GcnSpec
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- Every window sits at block index 0 at the one grid point. -/
theorem idx_facts : ∀ t : Fin cfg0.N,
    win0_0.index t (0 : Fin 2) = 0 ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0 :=
  (by decide +kernel : ∀ t : Fin grid0.N, _)

/-- The left array is staged whole. -/
theorem blk_x (c : Dev nD) (t : Fin cfg0.N) (r : Fin 10000) (l : Fin 128) :
    iblk0 V c 0 t (ix2 r l) = V c main_arg0 (ix2 r l) := by
  obtain ⟨e0, e1, -, -, -, -⟩ := idx_facts t
  show V c main_arg0 (((cfg0.win 0).blk t).view.emb (ix2 r l)) = _
  refine congrArg (V c main_arg0) ?_
  funext a; apply Fin.ext
  match a with
  | ⟨0, _⟩ => show win0_0.index t (0 : Fin 2) * 10000 + 1 * r.val = r.val; omega
  | ⟨1, _⟩ => show win0_0.index t (1 : Fin 2) * 128 + 1 * l.val = l.val; omega

/-- The weights are staged whole. -/
theorem blk_w (c : Dev nD) (t : Fin cfg0.N) (l : Fin 128) (q : Fin 128) :
    iblk0 V c 1 t (ix2 l q) = V c main_arg2 (ix2 l q) := by
  obtain ⟨-, -, e2, e3, -, -⟩ := idx_facts t
  show V c main_arg2 (((cfg0.win 1).blk t).view.emb (ix2 l q)) = _
  refine congrArg (V c main_arg2) ?_
  funext a; apply Fin.ext
  match a with
  | ⟨0, _⟩ => show win0_1.index t (0 : Fin 2) * 128 + 1 * l.val = l.val; omega
  | ⟨1, _⟩ => show win0_1.index t (1 : Fin 2) * 128 + 1 * q.val = q.val; omega

/-- Entry (r, q) of the one output block sits at (r, q) of the output array. -/
theorem emb_out (t : Fin cfg0.N) (r : Fin 10000) (q : Fin 128) :
    ((cfg0.win 2).blk t).view.emb (ix2 r q) = ix2 r q := by
  obtain ⟨-, -, -, -, e4, e5⟩ := idx_facts t
  funext a; apply Fin.ext
  match a with
  | ⟨0, _⟩ => show win0_2.index t (0 : Fin 2) * 10000 + 1 * r.val = r.val; omega
  | ⟨1, _⟩ => show win0_2.index t (1 : Fin 2) * 128 + 1 * q.val = q.val; omega

variable (hpay : ∀ (x : FVec Ideal S10000x128 .f32) (w : FVec Ideal S128x128 .f32), k0_pay1 (F := Ideal) x w = support x w)

include hpay in
/-- What the grid point writes back is the product of the whole arrays. -/
theorem flushed (c : Dev nD) (t : Fin cfg0.N) :
    (dat0 V c).flushed 2 t = ((cfg0.win 2).blk t).view.read (Elt Ideal) (support (V c main_arg0) (V c main_arg2)) := by
  show (cfg0.win 2).cut (grid0.coords t) ((dat0 V c).after 2 t) = _
  rw [after0_2]
  unfold out0_2
  rw [View.canon_unit_zero hz]
  simp only [View.ld_unit_zero (S := S10000x128) hz, View.ld_unit_zero (S := S128x128) hz]
  rw [hpay]
  funext j
  obtain ⟨r, q, rfl⟩ : ∃ (r : Fin 10000) (q : Fin 128), j = ix2 r q := ⟨j 0, j 1, eq_ix2 j⟩
  show support (iblk0 V c 0 t) (iblk0 V c 1 t) (ix2 r q)
    = support (V c main_arg0) (V c main_arg2) (((cfg0.win 2).blk t).view.emb (ix2 r q))
  rw [emb_out t r q]
  exact support_row _ _ _ _ r r q (fun l => blk_x V c t r l) (fun l => blk_w V c t l q)

/-- An index of the output array is in the block iff each coordinate is in the block's range on its axis. -/
theorem mem_blk (t : Fin cfg0.N) (i : S10000x128.Idx) :
    i ∈ ((cfg0.win 2).blk t).view.set ↔ ∀ a : Fin 2, win0_2.index t a * S10000x128.size a ≤ (i a).val ∧ (i a).val < win0_2.index t a * S10000x128.size a + S10000x128.size a := by
  show i ∈ ((View.whole main_v0).slice (win0_2.rect t)).set ↔ _
  rw [View.set_slice_whole, Rect.mem_set_unit]
  exact Iff.rfl

/-- The one block is the whole array. -/
theorem cover (i : S10000x128.Idx) : ∃ t : Fin cfg0.N, (cfg0.win 2).flush t = true ∧ i ∈ ((cfg0.win 2).blk t).view.set := by
  have hi0 : (i 0).val < 10000 := (i 0).isLt
  have hi1 : (i 1).val < 128 := (i 1).isLt
  have hN : cfg0.N = 1 := N_0
  let t : Fin cfg0.N := ⟨0, by rw [hN]; omega⟩
  obtain ⟨-, -, -, -, e4, e5⟩ := idx_facts t
  refine ⟨t, flush0_2 t, ?_⟩
  rw [mem_blk]
  intro a
  match a with
  | ⟨0, _⟩ => show win0_2.index t (0 : Fin 2) * 10000 ≤ (i 0).val ∧ (i 0).val < win0_2.index t (0 : Fin 2) * 10000 + 10000; omega
  | ⟨1, _⟩ => show win0_2.index t (1 : Fin 2) * 128 ≤ (i 1).val ∧ (i 1).val < win0_2.index t (1 : Fin 2) * 128 + 128; omega

include hpay in
/-- The output array after the launch: the product of the arrays the launch found. -/
theorem final (c : Dev nD) : (dat0 V c).arrAt 2 cfg0.N = support (V c main_arg0) (V c main_arg2) :=
  (dat0 V c).arrAt_eq_of_cover 2 _ (fun t _ => flushed V hpay c t) (fun i => cover i)

end Cert.KernelIdeal.Blocks0

end
-- ==== Proof.Blocks1.lean ====
/-
  The first graph-convolution launch, from blocks to the array.

  The launch has 25 grid points; point t stages rows 400·t … 400·t + 399 of the adjacency matrix, the whole support
  array and the whole bias row, and writes back rows 400·t … 400·t + 399 of the output.  A row of relu(adj · s + b)
  depends on the same row of adj only, so what point t writes back is the block of rows 400·t … of the layer taken over
  the whole arrays; the 25 blocks tile the 10000 rows, so the output array ends as the layer of the arrays the launch
  found.
-/
import proofs.«147911_g58265526337850_cont_9to1c4b_403_3_alg».proof.Proof.Gen.KernelIdeal.Frame
import proofs.«147911_g58265526337850_cont_9to1c4b_403_3_alg».proof.Proof.SpecRows
import Idealize.ShloMosaic.Lib.Pipeline.Value

noncomputable section

namespace Cert.KernelIdeal.Blocks1

open Cert.KernelIdeal Cert.KernelIdeal.Gen Idealize.ShloMosaic Idealize.ShloMosaic.TcCoe Idealize.SL.Sem
open Idealize.ShloMosaic.ValueIdx Cert.GcnSpec
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The block indices over the grid: the adjacency block and the output block sit at block row t, everything else at 0. -/
theorem idx_facts : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 ∧ t.val < 25 :=
  (by decide +kernel : ∀ t : Fin grid1.N, _)

/-- Row y of point t's adjacency block is row 400·t + y of the adjacency matrix. -/
theorem blk_adj (c : Dev nD) (t : Fin cfg1.N) (y : Fin 400) (l : Fin 10000) (h : t.val * 400 + y.val < 10000) :
    iblk1 V c 0 t (ix2 y l) = V c main_arg1 (ix2 (⟨t.val * 400 + y.val, h⟩ : Fin 10000) l) := by
  obtain ⟨e0, e1, -, -, -, -, -, -, -⟩ := idx_facts t
  show V c main_arg1 (((cfg1.win 0).blk t).view.emb (ix2 y l)) = _
  refine congrArg (V c main_arg1) ?_
  funext a; apply Fin.ext
  match a with
  | ⟨0, _⟩ => show win1_0.index t (0 : Fin 2) * 400 + 1 * y.val = t.val * 400 + y.val; omega
  | ⟨1, _⟩ => show win1_0.index t (1 : Fin 2) * 10000 + 1 * l.val = l.val; omega

/-- The support array is staged whole. -/
theorem blk_sup (c : Dev nD) (t : Fin cfg1.N) (l : Fin 10000) (q : Fin 128) :
    iblk1 V c 1 t (ix2 l q) = V c main_v0 (ix2 l q) := by
  obtain ⟨-, -, e2, e3, -, -, -, -, -⟩ := idx_facts t
  show V c main_v0 (((cfg1.win 1).blk t).view.emb (ix2 l q)) = _
  refine congrArg (V c main_v0) ?_
  funext a; apply Fin.ext
  match a with
  | ⟨0, _⟩ => show win1_1.index t (0 : Fin 2) * 10000 + 1 * l.val = l.val; omega
  | ⟨1, _⟩ => show win1_1.index t (1 : Fin 2) * 128 + 1 * q.val = q.val; omega

/-- The bias row is staged whole. -/
theorem blk_bias (c : Dev nD) (t : Fin cfg1.N) (q : Fin 128) :
    iblk1 V c 2 t (ix2 (0 : Fin 1) q) = V c main_v1 (ix2 (0 : Fin 1) q) := by
  obtain ⟨-, -, -, -, e4, e5, -, -, -⟩ := idx_facts t
  show V c main_v1 (((cfg1.win 2).blk t).view.emb (ix2 (0 : Fin 1) q)) = _
  refine congrArg (V c main_v1) ?_
  funext a; apply Fin.ext
  match a with
  | ⟨0, _⟩ => show win1_2.index t (0 : Fin 2) * 1 + 1 * 0 = 0; omega
  | ⟨1, _⟩ => show win1_2.index t (1 : Fin 2) * 128 + 1 * q.val = q.val; omega

/-- Entry (y, q) of point t's output block sits at (400·t + y, q) of the output array. -/
theorem emb_out (t : Fin cfg1.N) (y : Fin 400) (q : Fin 128) (h : t.val * 400 + y.val < 10000) :
    ((cfg1.win 3).blk t).view.emb (ix2 y q) = ix2 (⟨t.val * 400 + y.val, h⟩ : Fin 10000) q := by
  obtain ⟨-, -, -, -, -, -, e6, e7, -⟩ := idx_facts t
  funext a; apply Fin.ext
  match a with
  | ⟨0, _⟩ => show win1_3.index t (0 : Fin 2) * 400 + 1 * y.val = t.val * 400 + y.val; omega
  | ⟨1, _⟩ => show win1_3.index t (1 : Fin 2) * 128 + 1 * q.val = q.val; omega

variable (hpay : ∀ (a : FVec Ideal S400x10000 .f32) (s : FVec Ideal S10000x128 .bf16) (b : FVec Ideal S1x128 .f32),
    k1_pay1 (F := Ideal) a s b = layer a s (fun k => b (ix2 (0 : Fin 1) k)))

include hpay in
/-- What point t writes back is block t of the layer of the whole arrays. -/
theorem flushed (c : Dev nD) (t : Fin cfg1.N) :
    (dat1 V c).flushed 3 t = ((cfg1.win 3).blk t).view.read (Elt Ideal)
      (layer (V c main_arg1) (V c main_v0) (fun k => V c main_v1 (ix2 (0 : Fin 1) k))) := by
  show (cfg1.win 3).cut (grid1.coords t) ((dat1 V c).after 3 t) = _
  rw [after1_3]
  unfold out1_3
  rw [View.canon_unit_zero hz]
  simp only [View.ld_unit_zero (S := S400x10000) hz, View.ld_unit_zero (S := S10000x128) hz, View.ld_unit_zero (S := S1x128) hz]
  rw [hpay]
  have ht : t.val < 25 := (idx_facts t).2.2.2.2.2.2.2.2
  funext j
  obtain ⟨y, q, rfl⟩ : ∃ (y : Fin 400) (q : Fin 128), j = ix2 y q := ⟨j 0, j 1, eq_ix2 j⟩
  have hr : t.val * 400 + y.val < 10000 := by have := y.isLt; omega
  show layer (iblk1 V c 0 t) (iblk1 V c 1 t) (fun k => iblk1 V c 2 t (ix2 (0 : Fin 1) k)) (ix2 y q)
    = layer (V c main_arg1) (V c main_v0) (fun k => V c main_v1 (ix2 (0 : Fin 1) k)) (((cfg1.win 3).blk t).view.emb (ix2 y q))
  rw [emb_out t y q hr]
  exact layer_row _ _ _ _ _ _ y ⟨t.val * 400 + y.val, hr⟩ q (fun l => blk_adj V c t y l hr) (fun l => blk_sup V c t l q)
    (blk_bias V c t q)

/-- An index of the output array is in point t's block iff each coordinate is in the block's range on its axis. -/
theorem mem_blk (t : Fin cfg1.N) (i : S10000x128.Idx) :
    i ∈ ((cfg1.win 3).blk t).view.set ↔ ∀ a : Fin 2, win1_3.index t a * S400x128.size a ≤ (i a).val ∧ (i a).val < win1_3.index t a * S400x128.size a + S400x128.size a := by
  show i ∈ ((View.whole main_v2).slice (win1_3.rect t)).set ↔ _
  rw [View.set_slice_whole, Rect.mem_set_unit]
  exact Iff.rfl

/-- Every row is in the block of the point numbered by the row's quotient by 400. -/
theorem cover (i : S10000x128.Idx) : ∃ t : Fin cfg1.N, (cfg1.win 3).flush t = true ∧ i ∈ ((cfg1.win 3).blk t).view.set := by
  have hi0 : (i 0).val < 10000 := (i 0).isLt
  have hi1 : (i 1).val < 128 := (i 1).isLt
  have hN : cfg1.N = 25 := N_1
  let t : Fin cfg1.N := ⟨(i 0).val / 400, by rw [hN]; omega⟩
  obtain ⟨-, -, -, -, -, -, e6, e7, -⟩ := idx_facts t
  have e6' : win1_3.index t (0 : Fin 2) = (i 0).val / 400 := e6
  refine ⟨t, flush1_3 t, ?_⟩
  rw [mem_blk]
  intro a
  match a with
  | ⟨0, _⟩ => show win1_3.index t (0 : Fin 2) * 400 ≤ (i 0).val ∧ (i 0).val < win1_3.index t (0 : Fin 2) * 400 + 400; omega
  | ⟨1, _⟩ => show win1_3.index t (1 : Fin 2) * 128 ≤ (i 1).val ∧ (i 1).val < win1_3.index t (1 : Fin 2) * 128 + 128; omega

include hpay in
/-- The output array after the launch: the layer of the arrays the launch found. -/
theorem final (c : Dev nD) :
    (dat1 V c).arrAt 3 cfg1.N = layer (V c main_arg1) (V c main_v0) (fun k => V c main_v1 (ix2 (0 : Fin 1) k)) :=
  (dat1 V c).arrAt_eq_of_cover 3 _ (fun t _ => flushed V hpay c t) (fun i => cover i)

end Cert.KernelIdeal.Blocks1

end
-- ==== Proof.Blocks2.lean ====
/-
  The second feature product x1 · W1, from its one block to the array.

  The launch has one grid point; each window is its whole array, staged whole, and the body stores the product of the
  two arrays it loads.  The one block written back is the whole output array, which therefore ends as x · w of the arrays
  the launch found.
-/
import proofs.«147911_g58265526337850_cont_9to1c4b_403_3_alg».proof.Proof.Gen.KernelIdeal.Frame
import proofs.«147911_g58265526337850_cont_9to1c4b_403_3_alg».proof.Proof.SpecRows
import Idealize.ShloMosaic.Lib.Pipeline.Value

noncomputable section

namespace Cert.KernelIdeal.Blocks2

open Cert.KernelIdeal Cert.KernelIdeal.Gen Idealize.ShloMosaic Idealize.ShloMosaic.TcCoe Idealize.SL.Sem
open Idealize.ShloMosaic.ValueIdx Cert.GcnSpec
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- Every window sits at block index 0 at the one grid point. -/
theorem idx_facts : ∀ t : Fin cfg2.N,
    win2_0.index t (0 : Fin 2) = 0 ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0 :=
  (by decide +kernel : ∀ t : Fin grid2.N, _)

/-- The left array is staged whole. -/
theorem blk_x (c : Dev nD) (t : Fin cfg2.N) (r : Fin 10000) (l : Fin 128) :
    iblk2 V c 0 t (ix2 r l) = V c main_v2 (ix2 r l) := by
  obtain ⟨e0, e1, -, -, -, -⟩ := idx_facts t
  show V c main_v2 (((cfg2.win 0).blk t).view.emb (ix2 r l)) = _
  refine congrArg (V c main_v2) ?_
  funext a; apply Fin.ext
  match a with
  | ⟨0, _⟩ => show win2_0.index t (0 : Fin 2) * 10000 + 1 * r.val = r.val; omega
  | ⟨1, _⟩ => show win2_0.index t (1 : Fin 2) * 128 + 1 * l.val = l.val; omega

/-- The weights are staged whole. -/
theorem blk_w (c : Dev nD) (t : Fin cfg2.N) (l : Fin 128) (q : Fin 128) :
    iblk2 V c 1 t (ix2 l q) = V c main_arg4 (ix2 l q) := by
  obtain ⟨-, -, e2, e3, -, -⟩ := idx_facts t
  show V c main_arg4 (((cfg2.win 1).blk t).view.emb (ix2 l q)) = _
  refine congrArg (V c main_arg4) ?_
  funext a; apply Fin.ext
  match a with
  | ⟨0, _⟩ => show win2_1.index t (0 : Fin 2) * 128 + 1 * l.val = l.val; omega
  | ⟨1, _⟩ => show win2_1.index t (1 : Fin 2) * 128 + 1 * q.val = q.val; omega

/-- Entry (r, q) of the one output block sits at (r, q) of the output array. -/
theorem emb_out (t : Fin cfg2.N) (r : Fin 10000) (q : Fin 128) :
    ((cfg2.win 2).blk t).view.emb (ix2 r q) = ix2 r q := by
  obtain ⟨-, -, -, -, e4, e5⟩ := idx_facts t
  funext a; apply Fin.ext
  match a with
  | ⟨0, _⟩ => show win2_2.index t (0 : Fin 2) * 10000 + 1 * r.val = r.val; omega
  | ⟨1, _⟩ => show win2_2.index t (1 : Fin 2) * 128 + 1 * q.val = q.val; omega

variable (hpay : ∀ (x : FVec Ideal S10000x128 .f32) (w : FVec Ideal S128x128 .f32), k2_pay1 (F := Ideal) x w = support x w)

include hpay in
/-- What the grid point writes back is the product of the whole arrays. -/
theorem flushed (c : Dev nD) (t : Fin cfg2.N) :
    (dat2 V c).flushed 2 t = ((cfg2.win 2).blk t).view.read (Elt Ideal) (support (V c main_v2) (V c main_arg4)) := by
  show (cfg2.win 2).cut (grid2.coords t) ((dat2 V c).after 2 t) = _
  rw [after2_2]
  unfold out2_2
  rw [View.canon_unit_zero hz]
  simp only [View.ld_unit_zero (S := S10000x128) hz, View.ld_unit_zero (S := S128x128) hz]
  rw [hpay]
  funext j
  obtain ⟨r, q, rfl⟩ : ∃ (r : Fin 10000) (q : Fin 128), j = ix2 r q := ⟨j 0, j 1, eq_ix2 j⟩
  show support (iblk2 V c 0 t) (iblk2 V c 1 t) (ix2 r q)
    = support (V c main_v2) (V c main_arg4) (((cfg2.win 2).blk t).view.emb (ix2 r q))
  rw [emb_out t r q]
  exact support_row _ _ _ _ r r q (fun l => blk_x V c t r l) (fun l => blk_w V c t l q)

/-- An index of the output array is in the block iff each coordinate is in the block's range on its axis. -/
theorem mem_blk (t : Fin cfg2.N) (i : S10000x128.Idx) :
    i ∈ ((cfg2.win 2).blk t).view.set ↔ ∀ a : Fin 2, win2_2.index t a * S10000x128.size a ≤ (i a).val ∧ (i a).val < win2_2.index t a * S10000x128.size a + S10000x128.size a := by
  show i ∈ ((View.whole main_v3).slice (win2_2.rect t)).set ↔ _
  rw [View.set_slice_whole, Rect.mem_set_unit]
  exact Iff.rfl

/-- The one block is the whole array. -/
theorem cover (i : S10000x128.Idx) : ∃ t : Fin cfg2.N, (cfg2.win 2).flush t = true ∧ i ∈ ((cfg2.win 2).blk t).view.set := by
  have hi0 : (i 0).val < 10000 := (i 0).isLt
  have hi1 : (i 1).val < 128 := (i 1).isLt
  have hN : cfg2.N = 1 := N_2
  let t : Fin cfg2.N := ⟨0, by rw [hN]; omega⟩
  obtain ⟨-, -, -, -, e4, e5⟩ := idx_facts t
  refine ⟨t, flush2_2 t, ?_⟩
  rw [mem_blk]
  intro a
  match a with
  | ⟨0, _⟩ => show win2_2.index t (0 : Fin 2) * 10000 ≤ (i 0).val ∧ (i 0).val < win2_2.index t (0 : Fin 2) * 10000 + 10000; omega
  | ⟨1, _⟩ => show win2_2.index t (1 : Fin 2) * 128 ≤ (i 1).val ∧ (i 1).val < win2_2.index t (1 : Fin 2) * 128 + 128; omega

include hpay in
/-- The output array after the launch: the product of the arrays the launch found. -/
theorem final (c : Dev nD) : (dat2 V c).arrAt 2 cfg2.N = support (V c main_v2) (V c main_arg4) :=
  (dat2 V c).arrAt_eq_of_cover 2 _ (fun t _ => flushed V hpay c t) (fun i => cover i)

end Cert.KernelIdeal.Blocks2

end
-- ==== Proof.Blocks3.lean ====
/-
  The second graph-convolution launch, from blocks to the array.

  The launch has 25 grid points; point t stages rows 400·t … 400·t + 399 of the adjacency matrix and of the first
  layer's features, the whole support array, both bias rows and both halves of the classifier's weights, and writes
  back rows 400·t … 400·t + 399 of the output.  A row of relu(adj · s + b) depends on the same row of adj only, a row of
  the logits on the same row of each layer's features only, and the log-softmax acts on each row by itself; so what
  point t writes back is the block of rows 400·t … of the log-softmax of the logits taken over the whole arrays.  The
  25 blocks tile the 10000 rows, so the output array ends as that log-softmax over the arrays the launch found.
-/
import proofs.«147911_g58265526337850_cont_9to1c4b_403_3_alg».proof.Proof.Gen.KernelIdeal.Frame
import proofs.«147911_g58265526337850_cont_9to1c4b_403_3_alg».proof.Proof.SpecRows
import proofs.«147911_g58265526337850_cont_9to1c4b_403_3_alg».proof.Proof.Payloads
import Idealize.ShloMosaic.Lib.Pipeline.Value

noncomputable section

namespace Cert.KernelIdeal.Blocks3

open Cert.KernelIdeal Cert.KernelIdeal.Gen Idealize.ShloMosaic Idealize.ShloMosaic.TcCoe Idealize.SL.Sem
open Idealize.ShloMosaic.ValueIdx Cert.GcnSpec
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The block indices of the row-blocked windows over the grid: the adjacency block, the first layer's feature block
    and the output block sit at block row t. -/
theorem idx_rows : ∀ t : Fin cfg3.N,
    win3_0.index t (0 : Fin 2) = t.val ∧ win3_0.index t (1 : Fin 2) = 0
    ∧ win3_2.index t (0 : Fin 2) = t.val ∧ win3_2.index t (1 : Fin 2) = 0
    ∧ win3_7.index t (0 : Fin 2) = t.val ∧ win3_7.index t (1 : Fin 2) = 0 ∧ t.val < 25 :=
  (by decide +kernel : ∀ t : Fin grid3.N, _)

/-- The block indices of the windows staged whole: all at 0. -/
theorem idx_whole : ∀ t : Fin cfg3.N,
    win3_1.index t (0 : Fin 2) = 0 ∧ win3_1.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = 0 ∧ win3_5.index t (1 : Fin 2) = 0
    ∧ win3_6.index t (0 : Fin 2) = 0 ∧ win3_6.index t (1 : Fin 2) = 0 :=
  (by decide +kernel : ∀ t : Fin grid3.N, _)

/-- Row y of point t's adjacency block is row 400·t + y of the adjacency matrix. -/
theorem blk_adj (c : Dev nD) (t : Fin cfg3.N) (y : Fin 400) (l : Fin 10000) (h : t.val * 400 + y.val < 10000) :
    iblk3 V c 0 t (ix2 y l) = V c main_arg1 (ix2 (⟨t.val * 400 + y.val, h⟩ : Fin 10000) l) := by
  obtain ⟨e0, e1, -, -, -, -, -⟩ := idx_rows t
  show V c main_arg1 (((cfg3.win 0).blk t).view.emb (ix2 y l)) = _
  refine congrArg (V c main_arg1) ?_
  funext a; apply Fin.ext
  match a with
  | ⟨0, _⟩ => show win3_0.index t (0 : Fin 2) * 400 + 1 * y.val = t.val * 400 + y.val; omega
  | ⟨1, _⟩ => show win3_0.index t (1 : Fin 2) * 10000 + 1 * l.val = l.val; omega

/-- The support array is staged whole. -/
theorem blk_sup (c : Dev nD) (t : Fin cfg3.N) (l : Fin 10000) (q : Fin 128) :
    iblk3 V c 1 t (ix2 l q) = V c main_v3 (ix2 l q) := by
  obtain ⟨e0, e1, -, -, -, -, -, -, -, -⟩ := idx_whole t
  show V c main_v3 (((cfg3.win 1).blk t).view.emb (ix2 l q)) = _
  refine congrArg (V c main_v3) ?_
  funext a; apply Fin.ext
  match a with
  | ⟨0, _⟩ => show win3_1.index t (0 : Fin 2) * 10000 + 1 * l.val = l.val; omega
  | ⟨1, _⟩ => show win3_1.index t (1 : Fin 2) * 128 + 1 * q.val = q.val; omega

/-- Row y of point t's block of the first layer's features is row 400·t + y of those features. -/
theorem blk_feat (c : Dev nD) (t : Fin cfg3.N) (y : Fin 400) (l : Fin 128) (h : t.val * 400 + y.val < 10000) :
    iblk3 V c 2 t (ix2 y l) = V c main_v2 (ix2 (⟨t.val * 400 + y.val, h⟩ : Fin 10000) l) := by
  obtain ⟨-, -, e0, e1, -, -, -⟩ := idx_rows t
  show V c main_v2 (((cfg3.win 2).blk t).view.emb (ix2 y l)) = _
  refine congrArg (V c main_v2) ?_
  funext a; apply Fin.ext
  match a with
  | ⟨0, _⟩ => show win3_2.index t (0 : Fin 2) * 400 + 1 * y.val = t.val * 400 + y.val; omega
  | ⟨1, _⟩ => show win3_2.index t (1 : Fin 2) * 128 + 1 * l.val = l.val; omega

/-- The layer's bias row is staged whole. -/
theorem blk_bias (c : Dev nD) (t : Fin cfg3.N) (q : Fin 128) :
    iblk3 V c 3 t (ix2 (0 : Fin 1) q) = V c main_v4 (ix2 (0 : Fin 1) q) := by
  obtain ⟨-, -, e0, e1, -, -, -, -, -, -⟩ := idx_whole t
  show V c main_v4 (((cfg3.win 3).blk t).view.emb (ix2 (0 : Fin 1) q)) = _
  refine congrArg (V c main_v4) ?_
  funext a; apply Fin.ext
  match a with
  | ⟨0, _⟩ => show win3_3.index t (0 : Fin 2) * 1 + 1 * 0 = 0; omega
  | ⟨1, _⟩ => show win3_3.index t (1 : Fin 2) * 128 + 1 * q.val = q.val; omega

/-- The top half of the classifier's weights is staged whole, -/
theorem blk_wt (c : Dev nD) (t : Fin cfg3.N) (l : Fin 128) (q : Fin 64) :
    iblk3 V c 4 t (ix2 l q) = V c main_v5 (ix2 l q) := by
  obtain ⟨-, -, -, -, e0, e1, -, -, -, -⟩ := idx_whole t
  show V c main_v5 (((cfg3.win 4).blk t).view.emb (ix2 l q)) = _
  refine congrArg (V c main_v5) ?_
  funext a; apply Fin.ext
  match a with
  | ⟨0, _⟩ => show win3_4.index t (0 : Fin 2) * 128 + 1 * l.val = l.val; omega
  | ⟨1, _⟩ => show win3_4.index t (1 : Fin 2) * 64 + 1 * q.val = q.val; omega

/-- and so is the bottom half. -/
theorem blk_wb (c : Dev nD) (t : Fin cfg3.N) (l : Fin 128) (q : Fin 64) :
    iblk3 V c 5 t (ix2 l q) = V c main_v6 (ix2 l q) := by
  obtain ⟨-, -, -, -, -, -, e0, e1, -, -⟩ := idx_whole t
  show V c main_v6 (((cfg3.win 5).blk t).view.emb (ix2 l q)) = _
  refine congrArg (V c main_v6) ?_
  funext a; apply Fin.ext
  match a with
  | ⟨0, _⟩ => show win3_5.index t (0 : Fin 2) * 128 + 1 * l.val = l.val; omega
  | ⟨1, _⟩ => show win3_5.index t (1 : Fin 2) * 64 + 1 * q.val = q.val; omega

/-- The classifier's bias row is staged whole. -/
theorem blk_bl (c : Dev nD) (t : Fin cfg3.N) (q : Fin 64) :
    iblk3 V c 6 t (ix2 (0 : Fin 1) q) = V c main_v7 (ix2 (0 : Fin 1) q) := by
  obtain ⟨-, -, -, -, -, -, -, -, e0, e1⟩ := idx_whole t
  show V c main_v7 (((cfg3.win 6).blk t).view.emb (ix2 (0 : Fin 1) q)) = _
  refine congrArg (V c main_v7) ?_
  funext a; apply Fin.ext
  match a with
  | ⟨0, _⟩ => show win3_6.index t (0 : Fin 2) * 1 + 1 * 0 = 0; omega
  | ⟨1, _⟩ => show win3_6.index t (1 : Fin 2) * 64 + 1 * q.val = q.val; omega

/-- Entry (y, q) of point t's output block sits at (400·t + y, q) of the output array. -/
theorem emb_out (t : Fin cfg3.N) (y : Fin 400) (q : Fin 64) (h : t.val * 400 + y.val < 10000) :
    ((cfg3.win 7).blk t).view.emb (ix2 y q) = ix2 (⟨t.val * 400 + y.val, h⟩ : Fin 10000) q := by
  obtain ⟨-, -, -, -, e0, e1, -⟩ := idx_rows t
  funext a; apply Fin.ext
  match a with
  | ⟨0, _⟩ => show win3_7.index t (0 : Fin 2) * 400 + 1 * y.val = t.val * 400 + y.val; omega
  | ⟨1, _⟩ => show win3_7.index t (1 : Fin 2) * 64 + 1 * q.val = q.val; omega

/-- What point t writes back is block t of the log-softmax of the logits of the whole arrays. -/
theorem flushed (c : Dev nD) (t : Fin cfg3.N) :
    (dat3 V c).flushed 7 t = ((cfg3.win 7).blk t).view.read (Elt Ideal)
      (logSoftmax (logitsSplit (V c main_v2)
        (layer (V c main_arg1) (V c main_v3) (fun k => V c main_v4 (ix2 (0 : Fin 1) k)))
        (V c main_v5) (V c main_v6) (fun q => V c main_v7 (ix2 (0 : Fin 1) q)))) := by
  show (cfg3.win 7).cut (grid3.coords t) ((dat3 V c).after 7 t) = _
  rw [after3_7]
  unfold out3_7
  rw [View.canon_unit_zero hz]
  simp only [View.ld_unit_zero (S := S400x10000) hz, View.ld_unit_zero (S := S10000x128) hz, View.ld_unit_zero (S := S1x128) hz,
    View.ld_unit_zero (S := S400x128) hz, View.ld_unit_zero (S := S128x64) hz, View.ld_unit_zero (S := S1x64) hz]
  rw [Payloads.pay3_eq]
  have ht : t.val < 25 := (idx_rows t).2.2.2.2.2.2
  funext j
  obtain ⟨y, q, rfl⟩ : ∃ (y : Fin 400) (q : Fin 64), j = ix2 y q := ⟨j 0, j 1, eq_ix2 j⟩
  have hr : t.val * 400 + y.val < 10000 := by have := y.isLt; omega
  show logSoftmax (logitsSplit (iblk3 V c 2 t)
        (layer (iblk3 V c 0 t) (iblk3 V c 1 t) (fun k => iblk3 V c 3 t (ix2 (0 : Fin 1) k)))
        (iblk3 V c 4 t) (iblk3 V c 5 t) (fun q => iblk3 V c 6 t (ix2 (0 : Fin 1) q))) (ix2 y q)
    = logSoftmax (logitsSplit (V c main_v2)
        (layer (V c main_arg1) (V c main_v3) (fun k => V c main_v4 (ix2 (0 : Fin 1) k)))
        (V c main_v5) (V c main_v6) (fun q => V c main_v7 (ix2 (0 : Fin 1) q))) (((cfg3.win 7).blk t).view.emb (ix2 y q))
  rw [emb_out t y q hr]
  exact logSoftmax_row _ _ y ⟨t.val * 400 + y.val, hr⟩ q fun c' =>
    logitsSplit_row _ _ _ _ _ _ _ _ _ _ y ⟨t.val * 400 + y.val, hr⟩ c'
      (fun l => blk_feat V c t y l hr)
      (fun l => layer_row _ _ _ _ _ _ y ⟨t.val * 400 + y.val, hr⟩ l (fun k => blk_adj V c t y k hr) (fun k => blk_sup V c t k l)
        (blk_bias V c t l))
      (fun l => blk_wt V c t l c') (fun l => blk_wb V c t l c') (blk_bl V c t c')

/-- An index of the output array is in point t's block iff each coordinate is in the block's range on its axis. -/
theorem mem_blk (t : Fin cfg3.N) (i : S10000x64.Idx) :
    i ∈ ((cfg3.win 7).blk t).view.set ↔ ∀ a : Fin 2, win3_7.index t a * S400x64.size a ≤ (i a).val ∧ (i a).val < win3_7.index t a * S400x64.size a + S400x64.size a := by
  show i ∈ ((View.whole main_v8).slice (win3_7.rect t)).set ↔ _
  rw [View.set_slice_whole, Rect.mem_set_unit]
  exact Iff.rfl

/-- Every row is in the block of the point numbered by the row's quotient by 400. -/
theorem cover (i : S10000x64.Idx) : ∃ t : Fin cfg3.N, (cfg3.win 7).flush t = true ∧ i ∈ ((cfg3.win 7).blk t).view.set := by
  have hi0 : (i 0).val < 10000 := (i 0).isLt
  have hi1 : (i 1).val < 64 := (i 1).isLt
  have hN : cfg3.N = 25 := N_3
  let t : Fin cfg3.N := ⟨(i 0).val / 400, by rw [hN]; omega⟩
  obtain ⟨-, -, -, -, e6, e7, -⟩ := idx_rows t
  have e6' : win3_7.index t (0 : Fin 2) = (i 0).val / 400 := e6
  refine ⟨t, flush3_7 t, ?_⟩
  rw [mem_blk]
  intro a
  match a with
  | ⟨0, _⟩ => show win3_7.index t (0 : Fin 2) * 400 ≤ (i 0).val ∧ (i 0).val < win3_7.index t (0 : Fin 2) * 400 + 400; omega
  | ⟨1, _⟩ => show win3_7.index t (1 : Fin 2) * 64 ≤ (i 1).val ∧ (i 1).val < win3_7.index t (1 : Fin 2) * 64 + 64; omega

/-- The output array after the launch: the log-softmax of the logits of the arrays the launch found. -/
theorem final (c : Dev nD) :
    (dat3 V c).arrAt 7 cfg3.N = logSoftmax (logitsSplit (V c main_v2)
        (layer (V c main_arg1) (V c main_v3) (fun k => V c main_v4 (ix2 (0 : Fin 1) k)))
        (V c main_v5) (V c main_v6) (fun q => V c main_v7 (ix2 (0 : Fin 1) q))) :=
  (dat3 V c).arrAt_eq_of_cover 7 _ (fun t _ => flushed V c t) (fun i => cover i)

end Cert.KernelIdeal.Blocks3

end
-- ==== Proof.Chain.lean ====
/-
  The result buffer at the last boundary, traced back to the launch memory.

  Boundary by boundary: the first launch leaves h · W0 in its output; the host reshapes b0 to a row; the second launch
  leaves x1 = relu(adj · (h · W0) + b0); the third leaves x1 · W1; the host reshapes b1 and bl to rows and cuts the weights
  Wl into their top and bottom 128 rows; the last launch leaves the row-wise log-softmax of
  x1 · top + relu(adj · (x1 · W1) + b1) · bottom + bl.  A buffer a segment does not write holds what it held before;
  an input array of a launch is left as it was found.  Splitting the product with the concatenated features
  (`logits_split`) turns the last expression into the network of the specification.
-/
import proofs.«147911_g58265526337850_cont_9to1c4b_403_3_alg».proof.Proof.Gen.KernelIdeal.Frame
import proofs.«147911_g58265526337850_cont_9to1c4b_403_3_alg».proof.Proof.Spec
import proofs.«147911_g58265526337850_cont_9to1c4b_403_3_alg».proof.Proof.Payloads
import proofs.«147911_g58265526337850_cont_9to1c4b_403_3_alg».proof.Proof.Blocks0
import proofs.«147911_g58265526337850_cont_9to1c4b_403_3_alg».proof.Proof.Blocks1
import proofs.«147911_g58265526337850_cont_9to1c4b_403_3_alg».proof.Proof.Blocks2
import proofs.«147911_g58265526337850_cont_9to1c4b_403_3_alg».proof.Proof.Blocks3
import Idealize.ShloMosaic.Lib.ValueLayout
import Idealize.ShloMosaic.Lib.StableHlo.Run

noncomputable section

namespace Cert.KernelIdeal.Chain

open Cert.KernelIdeal Cert.KernelIdeal.Gen Idealize.ShloMosaic Idealize.ShloMosaic.TcCoe Idealize.SL.Sem
open Idealize.ShloMosaic.ValueIdx Idealize.ShloMosaic.StableHlo Cert.GcnSpec
open Idealize.ShloMosaic.Pipeline (Dat)

variable (m : (ℓ : Loc nD τ sig) → Buf (Elt Ideal) ℓ) (ρ : Dev nD → PrngReg) (c : Dev nD)

/-- A host stretch leaves a buffer it does not write as it was. -/
local macro "host_keep" : tactic => `(tactic| (
  refine StableHlo.after_of_forall_not_mem _ _ (List.forall_iff_forall_mem.mp ?_)
  simp only [hostOps1, hostOps3, List.Forall, StableHlo.unary_writes, StableHlo.reshape_writes, Finset.mem_singleton]
  repeat' apply And.intro
  all_goals exact StableHlo.devRef_ne_of_ne (by decide)))

/-! ## The arguments at the boundaries where a launch or a host operation reads them -/

theorem W1_arg (b : Ref sig .tc) (hb : ∀ w, Pipeline.arrRef spec0 w ≠ b) :
    W1 m ρ c (Proc.devRef .tc b) = m ((c : Thread nD τ).loc b) := (W1_of_ne m ρ c b hb).trans rfl

theorem W2_adj : W2 m ρ c (Proc.devRef .tc main_arg1) = m ((c : Thread nD τ).loc main_arg1) :=
  (by host_keep : W2 m ρ c (Proc.devRef .tc main_arg1) = W1 m ρ c (Proc.devRef .tc main_arg1)).trans
    (W1_arg m ρ c main_arg1 (by decide))

theorem W3_adj : W3 m ρ c (Proc.devRef .tc main_arg1) = m ((c : Thread nD τ).loc main_arg1) :=
  ((W3_arr m ρ c 0).trans (((dat1 (V2 m ρ) c).arrAt_in 0 rfl _).trans (A_eq1 (V2 m ρ) c 0))).trans (W2_adj m ρ c)

theorem W5_adj : W5 m ρ c (Proc.devRef .tc main_arg1) = m ((c : Thread nD τ).loc main_arg1) :=
  (by host_keep : W5 m ρ c (Proc.devRef .tc main_arg1) = W4 m ρ c (Proc.devRef .tc main_arg1)).trans
    ((W4_of_ne m ρ c main_arg1 (by decide)).trans (W3_adj m ρ c))

theorem W3_w1 : W3 m ρ c (Proc.devRef .tc main_arg4) = m ((c : Thread nD τ).loc main_arg4) :=
  (W3_of_ne m ρ c main_arg4 (by decide)).trans
    ((by host_keep : W2 m ρ c (Proc.devRef .tc main_arg4) = W1 m ρ c (Proc.devRef .tc main_arg4)).trans
      (W1_arg m ρ c main_arg4 (by decide)))

theorem W4_b1 : W4 m ρ c (Proc.devRef .tc main_arg5) = m ((c : Thread nD τ).loc main_arg5) :=
  (W4_of_ne m ρ c main_arg5 (by decide)).trans ((W3_of_ne m ρ c main_arg5 (by decide)).trans
    ((by host_keep : W2 m ρ c (Proc.devRef .tc main_arg5) = W1 m ρ c (Proc.devRef .tc main_arg5)).trans
      (W1_arg m ρ c main_arg5 (by decide))))

theorem W4_wl : W4 m ρ c (Proc.devRef .tc main_arg6) = m ((c : Thread nD τ).loc main_arg6) :=
  (W4_of_ne m ρ c main_arg6 (by decide)).trans ((W3_of_ne m ρ c main_arg6 (by decide)).trans
    ((by host_keep : W2 m ρ c (Proc.devRef .tc main_arg6) = W1 m ρ c (Proc.devRef .tc main_arg6)).trans
      (W1_arg m ρ c main_arg6 (by decide))))

theorem W4_bl : W4 m ρ c (Proc.devRef .tc main_arg7) = m ((c : Thread nD τ).loc main_arg7) :=
  (W4_of_ne m ρ c main_arg7 (by decide)).trans ((W3_of_ne m ρ c main_arg7 (by decide)).trans
    ((by host_keep : W2 m ρ c (Proc.devRef .tc main_arg7) = W1 m ρ c (Proc.devRef .tc main_arg7)).trans
      (W1_arg m ρ c main_arg7 (by decide))))

/-! ## The first layer -/

/-- After the first launch its output holds h · W0. -/
theorem W1_s0 : W1 m ρ c (Proc.devRef .tc main_v0) = support (m ((c : Thread nD τ).loc main_arg0)) (m ((c : Thread nD τ).loc main_arg2)) :=
  (W1_arr m ρ c 2).trans (Blocks0.final (V0 m ρ) (fun x w => Payloads.pay0_eq x w) c)

theorem W2_s0 : W2 m ρ c (Proc.devRef .tc main_v0) = support (m ((c : Thread nD τ).loc main_arg0)) (m ((c : Thread nD τ).loc main_arg2)) :=
  (by host_keep : W2 m ρ c (Proc.devRef .tc main_v0) = W1 m ρ c (Proc.devRef .tc main_v0)).trans (W1_s0 m ρ c)

/-- The host's reshape of b0 to a row reads, at (0, k), b0 at k. -/
theorem W2_b0 (k : Fin 128) : V2 m ρ c main_v1 (ix2 (0 : Fin 1) k) = (m ((c : Thread nD τ).loc main_arg3)) (ix1 k) := by
  have e : (V2 m ρ c main_v1 : S1x128.Idx → EReal)
      = shapeCast S1x128 (W1 m ρ c (Proc.devRef .tc main_arg3)) shapeCasts_S128_S1x128 := by
    show StableHlo.after hostOps1 (W1 m ρ c) (Proc.devRef .tc main_v1) = _
    after_results
    rfl
  rw [e, shapeCast_a_1a_apply, W1_arg m ρ c main_arg3 (by decide)]

/-- x1: the first layer's features. -/
abbrev x1 : Mat 10000 128 :=
  layer (m ((c : Thread nD τ).loc main_arg1)) (support (m ((c : Thread nD τ).loc main_arg0)) (m ((c : Thread nD τ).loc main_arg2))) (fun k => (m ((c : Thread nD τ).loc main_arg3)) (ix1 k))

/-- After the second launch its output holds x1. -/
theorem W3_x1 : W3 m ρ c (Proc.devRef .tc main_v2) = x1 m c := by
  refine ((W3_arr m ρ c 3).trans (Blocks1.final (V2 m ρ) (fun a s b => Payloads.pay1_eq a s b) c)).trans ?_
  show layer (W2 m ρ c (Proc.devRef .tc main_arg1)) (W2 m ρ c (Proc.devRef .tc main_v0)) (fun k => V2 m ρ c main_v1 (ix2 (0 : Fin 1) k)) = _
  rw [W2_adj, W2_s0, funext (W2_b0 m ρ c)]

/-! ## The second layer and the logits -/

/-- After the third launch its output holds x1 · W1, and its input x1 is as it was found. -/
theorem W4_s1 : W4 m ρ c (Proc.devRef .tc main_v3) = support (x1 m c) (m ((c : Thread nD τ).loc main_arg4)) := by
  refine ((W4_arr m ρ c 2).trans (Blocks2.final (V3 m ρ) (fun x w => Payloads.pay2_eq x w) c)).trans ?_
  show support (W3 m ρ c (Proc.devRef .tc main_v2)) (W3 m ρ c (Proc.devRef .tc main_arg4)) = _
  rw [W3_x1, W3_w1]

theorem W4_x1 : W4 m ρ c (Proc.devRef .tc main_v2) = x1 m c :=
  ((W4_arr m ρ c 0).trans (((dat2 (V3 m ρ) c).arrAt_in 0 rfl _).trans (A_eq2 (V3 m ρ) c 0))).trans (W3_x1 m ρ c)

theorem W5_s1 : W5 m ρ c (Proc.devRef .tc main_v3) = support (x1 m c) (m ((c : Thread nD τ).loc main_arg4)) :=
  (by host_keep : W5 m ρ c (Proc.devRef .tc main_v3) = W4 m ρ c (Proc.devRef .tc main_v3)).trans (W4_s1 m ρ c)

theorem W5_x1 : W5 m ρ c (Proc.devRef .tc main_v2) = x1 m c :=
  (by host_keep : W5 m ρ c (Proc.devRef .tc main_v2) = W4 m ρ c (Proc.devRef .tc main_v2)).trans (W4_x1 m ρ c)

/-- The host's reshape of b1 to a row reads, at (0, k), b1 at k. -/
theorem W5_b1 (k : Fin 128) : V5 m ρ c main_v4 (ix2 (0 : Fin 1) k) = (m ((c : Thread nD τ).loc main_arg5)) (ix1 k) := by
  have e : (V5 m ρ c main_v4 : S1x128.Idx → EReal)
      = shapeCast S1x128 (W4 m ρ c (Proc.devRef .tc main_arg5)) shapeCasts_S128_S1x128 := by
    show StableHlo.after hostOps3 (W4 m ρ c) (Proc.devRef .tc main_v4) = _
    after_results
    rfl
  rw [e, shapeCast_a_1a_apply, W4_b1]

/-- The host's reshape of bl to a row reads, at (0, q), bl at q. -/
theorem W5_bl (q : Fin 64) : V5 m ρ c main_v7 (ix2 (0 : Fin 1) q) = (m ((c : Thread nD τ).loc main_arg7)) (ix1 q) := by
  have e : (V5 m ρ c main_v7 : S1x64.Idx → EReal)
      = shapeCast S1x64 (W4 m ρ c (Proc.devRef .tc main_arg7)) shapeCasts_S64_S1x64 := by
    show StableHlo.after hostOps3 (W4 m ρ c) (Proc.devRef .tc main_v7) = _
    after_results
    rfl
  rw [e, shapeCast_a_1a_apply, W4_bl]

/-- The host's cut of the weights' rows 0 … 127. -/
theorem W5_top : (V5 m ρ c main_v5 : Mat 128 64) = top (m ((c : Thread nD τ).loc main_arg6)) := by
  have e : (V5 m ρ c main_v5 : S128x64.Idx → EReal)
      = extractStridedSlice S128x64 ![0, 0] (W4 m ρ c (Proc.devRef .tc main_arg6)) slices_S256x64_S128x64_0_0 := by
    show StableHlo.after hostOps3 (W4 m ρ c) (Proc.devRef .tc main_v5) = _
    after_results
  rw [e, W4_wl]
  funext i
  obtain ⟨p, q, rfl⟩ : ∃ (p : Fin 128) (q : Fin 64), i = ix2 p q := ⟨i 0, i 1, eq_ix2 i⟩
  exact slice2_axis0_apply 0 _ slices_S256x64_S128x64_0_0 p q ⟨p.val, by omega⟩ (by simp)

/-- The host's cut of the weights' rows 128 … 255. -/
theorem W5_bot : (V5 m ρ c main_v6 : Mat 128 64) = bot (m ((c : Thread nD τ).loc main_arg6)) := by
  have e : (V5 m ρ c main_v6 : S128x64.Idx → EReal)
      = extractStridedSlice S128x64 ![128, 0] (W4 m ρ c (Proc.devRef .tc main_arg6)) slices_S256x64_S128x64_128_0 := by
    show StableHlo.after hostOps3 (W4 m ρ c) (Proc.devRef .tc main_v6) = _
    after_results
  rw [e, W4_wl]
  funext i
  obtain ⟨p, q, rfl⟩ : ∃ (p : Fin 128) (q : Fin 64), i = ix2 p q := ⟨i 0, i 1, eq_ix2 i⟩
  exact slice2_axis0_apply 128 _ slices_S256x64_S128x64_128_0 p q ⟨128 + p.val, by omega⟩ rfl

/-- The result buffer at the last boundary is the network of the launch arrays. -/
theorem result : W6 m ρ c (Proc.devRef .tc main_v8)
    = network (m ((c : Thread nD τ).loc main_arg0)) (m ((c : Thread nD τ).loc main_arg1)) (m ((c : Thread nD τ).loc main_arg2)) (fun k => (m ((c : Thread nD τ).loc main_arg3)) (ix1 k))
        (m ((c : Thread nD τ).loc main_arg4)) (fun k => (m ((c : Thread nD τ).loc main_arg5)) (ix1 k)) (m ((c : Thread nD τ).loc main_arg6)) (fun q => (m ((c : Thread nD τ).loc main_arg7)) (ix1 q)) := by
  refine ((W6_arr m ρ c 7).trans (Blocks3.final (V5 m ρ) c)).trans ?_
  show logSoftmax (logitsSplit (W5 m ρ c (Proc.devRef .tc main_v2))
      (layer (W5 m ρ c (Proc.devRef .tc main_arg1)) (W5 m ρ c (Proc.devRef .tc main_v3)) (fun k => V5 m ρ c main_v4 (ix2 (0 : Fin 1) k)))
      (V5 m ρ c main_v5) (V5 m ρ c main_v6) (fun q => V5 m ρ c main_v7 (ix2 (0 : Fin 1) q))) = _
  rw [W5_x1, W5_adj, W5_s1, funext (W5_b1 m ρ c), W5_top, W5_bot, funext (W5_bl m ρ c), logits_split]
  rfl

end Cert.KernelIdeal.Chain

end
-- ==== Proof.lean ====
/-
  The kernel computes a two-layer graph-convolution network with concatenated layer outputs, a linear classifier and a
  row-wise log-softmax, as four kernel launches (h · W0; x1 = relu(adj · (h · W0) + b0) by blocks of 400 rows; x1 · W1;
  and, by blocks of 400 rows, the log-softmax of x1 · Wl[0:128] + relu(adj · (x1 · W1) + b1) · Wl[128:256] + bl); the
  reference computes the same network with whole-array operations, multiplying the concatenated features by all of Wl.

  On the extended reals (where a change of float format is the identity and a matrix product is the plain sum) every
  stage of the kernel is the stage of the specification (Proof/Spec.lean) over the rows of its block, a stage acts on
  each row independently of the others, and the 25 blocks tile the 10000 rows; the product with the concatenated
  features is the sum of the two half products, a regrouping of a finite sum that needs no finiteness of the inputs.
  So both programs end with the specification's network of the argument arrays: the kernel by the run of its four
  launches read back boundary by boundary (Proof/KernelRun.lean, Proof/Chain.lean over Proof/Blocks0–3.lean and
  Proof/Payloads.lean), the reference by its run read one operation at a time (Proof/Reference.lean).

  The three frames are the generated ones (the reference's is its run with the result dropped); the idealization rewrote
  no operation, so there is nothing to preserve.
-/
import proofs.«147911_g58265526337850_cont_9to1c4b_403_3_alg».proof.Defs
import proofs.«147911_g58265526337850_cont_9to1c4b_403_3_alg».proof.Proof.Gen.Kernel
import proofs.«147911_g58265526337850_cont_9to1c4b_403_3_alg».proof.Proof.Gen.Kernel.Skeleton
import proofs.«147911_g58265526337850_cont_9to1c4b_403_3_alg».proof.Proof.Gen.Kernel.Launch
import proofs.«147911_g58265526337850_cont_9to1c4b_403_3_alg».proof.Proof.Gen.Kernel.Points
import proofs.«147911_g58265526337850_cont_9to1c4b_403_3_alg».proof.Proof.Gen.Kernel.Frame
import proofs.«147911_g58265526337850_cont_9to1c4b_403_3_alg».proof.Proof.Gen.KernelIdeal
import proofs.«147911_g58265526337850_cont_9to1c4b_403_3_alg».proof.Proof.Gen.KernelIdeal.Skeleton
import proofs.«147911_g58265526337850_cont_9to1c4b_403_3_alg».proof.Proof.Gen.KernelIdeal.Launch
import proofs.«147911_g58265526337850_cont_9to1c4b_403_3_alg».proof.Proof.Gen.KernelIdeal.Points
import proofs.«147911_g58265526337850_cont_9to1c4b_403_3_alg».proof.Proof.Gen.KernelIdeal.Frame
import proofs.«147911_g58265526337850_cont_9to1c4b_403_3_alg».proof.Proof.Gen.ReferenceIdeal
import proofs.«147911_g58265526337850_cont_9to1c4b_403_3_alg».proof.Proof.Gen.Pre_finite_inputs
import proofs.«147911_g58265526337850_cont_9to1c4b_403_3_alg».proof.Proof.RefRun
import proofs.«147911_g58265526337850_cont_9to1c4b_403_3_alg».proof.Proof.RefRead
import proofs.«147911_g58265526337850_cont_9to1c4b_403_3_alg».proof.Proof.Reference
import proofs.«147911_g58265526337850_cont_9to1c4b_403_3_alg».proof.Proof.KernelRun
import proofs.«147911_g58265526337850_cont_9to1c4b_403_3_alg».proof.Proof.Chain
import Idealize.ShloMosaic.Adequacy
import Idealize.ShloMosaic.Init

noncomputable section

namespace Cert.Proof

open Idealize.ShloMosaic Idealize.ShloMosaic.ValueIdx Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.ValueP.run (F := Ideal) m ρ)

/-- Both programs end with the specification's network of the argument arrays. -/
theorem algebraic : Cert.algebraic_KernelIdeal_ReferenceIdeal := by
  intro m ρ m' ρ' _ hagree
  refine ⟨fun c => Cert.GcnSpec.network (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))
      (fun k => (m ((c.tc : Thread Cert.KernelIdeal.nD Cert.KernelIdeal.τ).loc Cert.KernelIdeal.main_arg3)) (ix1 k)) (m ((c.tc : Thread Cert.KernelIdeal.nD Cert.KernelIdeal.τ).loc Cert.KernelIdeal.main_arg4)) (fun k => (m ((c.tc : Thread Cert.KernelIdeal.nD Cert.KernelIdeal.τ).loc Cert.KernelIdeal.main_arg5)) (ix1 k))
      (m ((c.tc : Thread Cert.KernelIdeal.nD Cert.KernelIdeal.τ).loc Cert.KernelIdeal.main_arg6)) (fun q => (m ((c.tc : Thread Cert.KernelIdeal.nD Cert.KernelIdeal.τ).loc Cert.KernelIdeal.main_arg7)) (ix1 q)), ?_, ?_⟩
  · exact (θ_run Cert.KernelIdeal.defs _ _).mono
      (fun r h c => ⟨(h c).1.trans (Cert.KernelIdeal.Chain.result m ρ c), (h c).2⟩)
      (Cert.KernelIdeal.ValueRun.run (F := Ideal) m ρ)
  · refine (θ_run Cert.ReferenceIdeal.defs _ _).mono (fun _ h c => ⟨(h c).1.trans ?_, (h c).2⟩)
      (Cert.ReferenceIdeal.ValueP.run (F := Ideal) m' ρ')
    obtain ⟨h0, h1, h2, h3, h4, h5, h6, h7⟩ := hagree c
    rw [Cert.ReferenceIdeal.ReadP.val_main_v17_eq, Cert.ReferenceIdeal.RefValue.ref_eq, h0, h1, h2, h3, h4, h5, h6, h7]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
